-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x600 : Shape := ⟨3, ![64, 512, 600]⟩
abbrev S_ : Shape := ⟨0, ![]⟩

class Facts : Prop where
  bcast_S_S64x512x600 : S_.BroadcastsInDim S64x512x600 (![] : Fin 0 → Fin S64x512x600.rank)
  reducesTo_S64x512x600_S_d0_1_2 : S64x512x600.ReducesTo [0, 1, 2] S_
  h_S_ : 0 < S_.numel

variable [Facts]

def fn {F : FTy → Type} [FloatOps F] (main_arg0 : IVec S64x512x600 32) (main_arg1 : FVec F S64x512x600 .f32) (main_arg2 : FVec F S64x512x600 .f32) : IVec S_ 1 :=
  let main_v0 : FVec F S64x512x600 .f32 := Host.absf main_arg1
  let main_cst : FVec F S_ .f32 := constant S_ .f32 0x7F800000#32
  let main_v1 : FVec F S64x512x600 .f32 := broadcastInDim S64x512x600 ![] bcast_S_S64x512x600 main_cst
  let main_v2 : IVec S64x512x600 1 := cmpf .olt main_v0 main_v1
  let main_c : IVec S_ 1 := constantI S_ 1 1#1
  let main_v3 : IVec S_ 1 := (fun x v => Host.reduce IntOp.andi x v reducesTo_S64x512x600_S_d0_1_2 h_S_) main_v2 main_c
  let main_v4 : FVec F S64x512x600 .f32 := Host.absf main_arg2
  let main_cst_0 : FVec F S_ .f32 := constant S_ .f32 0x7F800000#32
  let main_v5 : FVec F S64x512x600 .f32 := broadcastInDim S64x512x600 ![] bcast_S_S64x512x600 main_cst_0
  let main_v6 : IVec S64x512x600 1 := cmpf .olt main_v4 main_v5
  let main_c_1 : IVec S_ 1 := constantI S_ 1 1#1
  let main_v7 : IVec S_ 1 := (fun x v => Host.reduce IntOp.andi x v reducesTo_S64x512x600_S_d0_1_2 h_S_) main_v6 main_c_1
  let main_v8 : IVec S_ 1 := andi main_v3 main_v7
  main_v8
-- ==== Kernel.lean ====
abbrev S64x512x600 : Shape := ⟨3, ![64, 512, 600]⟩
abbrev S600 : Shape := ⟨1, ![600]⟩
abbrev S_ : Shape := ⟨0, ![]⟩
abbrev S1x600 : Shape := ⟨2, ![1, 600]⟩
abbrev S200 : Shape := ⟨1, ![200]⟩
abbrev S200x1 : Shape := ⟨2, ![200, 1]⟩
abbrev S200x600 : Shape := ⟨2, ![200, 600]⟩
abbrev S64x8x128 : Shape := ⟨3, ![64, 8, 128]⟩
abbrev S1x512x600 : Shape := ⟨3, ![1, 512, 600]⟩
abbrev S1x8x128 : Shape := ⟨3, ![1, 8, 128]⟩
abbrev S512x600 : Shape := ⟨2, ![512, 600]⟩
abbrev S200x512 : Shape := ⟨2, ![200, 512]⟩
abbrev S200x200 : Shape := ⟨2, ![200, 200]⟩
abbrev S1x200 : Shape := ⟨2, ![1, 200]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩

abbrev nBuf : Space → Nat
  | .hbm => 59
  | .vmem => 7
  | .smem => 0
  | _ => 0

abbrev bufTy : (tb : Table) → Fin (tcTables nBuf tb) → BufTy
  | .hbm, ⟨0, _⟩ => ⟨S64x512x600, .i32⟩
  | .hbm, ⟨1, _⟩ => ⟨S64x512x600, .f32⟩
  | .hbm, ⟨2, _⟩ => ⟨S64x512x600, .f32⟩
  | .hbm, ⟨3, _⟩ => ⟨S600, .i32⟩
  | .hbm, ⟨4, _⟩ => ⟨S_, .i32⟩
  | .hbm, ⟨5, _⟩ => ⟨S600, .i32⟩
  | .hbm, ⟨6, _⟩ => ⟨S600, .i32⟩
  | .hbm, ⟨7, _⟩ => ⟨S_, .i32⟩
  | .hbm, ⟨8, _⟩ => ⟨S_, .i32⟩
  | .hbm, ⟨9, _⟩ => ⟨S600, .i32⟩
  | .hbm, ⟨10, _⟩ => ⟨S600, .i32⟩
  | .hbm, ⟨11, _⟩ => ⟨S600, .i32⟩
  | .hbm, ⟨12, _⟩ => ⟨S_, .i32⟩
  | .hbm, ⟨13, _⟩ => ⟨S600, .i32⟩
  | .hbm, ⟨14, _⟩ => ⟨S600, .i1⟩
  | .hbm, ⟨15, _⟩ => ⟨S600, .i32⟩
  | .hbm, ⟨16, _⟩ => ⟨S600, .i32⟩
  | .hbm, ⟨17, _⟩ => ⟨S_, .i32⟩
  | .hbm, ⟨18, _⟩ => ⟨S600, .i32⟩
  | .hbm, ⟨19, _⟩ => ⟨S600, .i1⟩
  | .hbm, ⟨20, _⟩ => ⟨S600, .i1⟩
  | .hbm, ⟨21, _⟩ => ⟨S_, .i32⟩
  | .hbm, ⟨22, _⟩ => ⟨S600, .i32⟩
  | .hbm, ⟨23, _⟩ => ⟨S600, .i32⟩
  | .hbm, ⟨24, _⟩ => ⟨S600, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S600, .i32⟩
  | .hbm, ⟨32, _⟩ => ⟨S600, .i32⟩
  | .hbm, ⟨33, _⟩ => ⟨S_, .i32⟩
  | .hbm, ⟨34, _⟩ => ⟨S600, .i32⟩
  | .hbm, ⟨35, _⟩ => ⟨S600, .i1⟩
  | .hbm, ⟨36, _⟩ => ⟨S_, .i32⟩
  | .hbm, ⟨37, _⟩ => ⟨S600, .i32⟩
  | .hbm, ⟨38, _⟩ => ⟨S600, .i1⟩
  | .hbm, ⟨39, _⟩ => ⟨S_, .i32⟩
  | .hbm, ⟨40, _⟩ => ⟨S_, .i1⟩
  | .hbm, ⟨41, _⟩ => ⟨S600, .i1⟩
  | .hbm, ⟨42, _⟩ => ⟨S600, .i1⟩
  | .hbm, ⟨43, _⟩ => ⟨S600, .i1⟩
  | .hbm, ⟨44, _⟩ => ⟨S600, .i32⟩
  | .hbm, ⟨45, _⟩ => ⟨S600, .i32⟩
  | .hbm, ⟨46, _⟩ => ⟨S600, .i32⟩
  | .hbm, ⟨47, _⟩ => ⟨S1x600, .i32⟩
  | .hbm, ⟨48, _⟩ => ⟨S200, .i32⟩
  | .hbm, ⟨49, _⟩ => ⟨S200x1, .i32⟩
  | .hbm, ⟨50, _⟩ => ⟨S200x600, .i32⟩
  | .hbm, ⟨51, _⟩ => ⟨S200x600, .i32⟩
  | .hbm, ⟨52, _⟩ => ⟨S200x600, .i1⟩
  | .hbm, ⟨53, _⟩ => ⟨S200x600, .f32⟩
  | .hbm, ⟨54, _⟩ => ⟨S64x8x128, .f32⟩
  | .hbm, ⟨55, _⟩ => ⟨S64x1x1, .f32⟩
  | .hbm, ⟨56, _⟩ => ⟨S64, .f32⟩
  | .hbm, ⟨57, _⟩ => ⟨S_, .f32⟩
  | .hbm, ⟨58, _⟩ => ⟨S_, .f32⟩
  | .local _ .vmem, ⟨0, _⟩ => ⟨S200x600, .f32⟩
  | .local _ .vmem, ⟨1, _⟩ => ⟨S1x512x600, .f32⟩
  | .local _ .vmem, ⟨2, _⟩ => ⟨S1x512x600, .f32⟩
  | .local _ .vmem, ⟨3, _⟩ => ⟨S1x512x600, .f32⟩
  | .local _ .vmem, ⟨4, _⟩ => ⟨S1x512x600, .f32⟩
  | .local _ .vmem, ⟨5, _⟩ => ⟨S1x8x128, .f32⟩
  | .local _ .vmem, ⟨6, _⟩ => ⟨S1x8x128, .f32⟩
  | _, _ => ⟨S64x512x600, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_1 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst : Ref sig .tc := ⟨.hbm, 57, rfl⟩
abbrev main_v15 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S200x600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S600 : S_.BroadcastsInDim S600 (![] : Fin 0 → Fin S600.rank)
  bcast_S600_S1x600_1 : S600.BroadcastsInDim S1x600 (![1] : Fin 1 → Fin S1x600.rank)
  bcast_S200_S200x1_0 : S200.BroadcastsInDim S200x1 (![0] : Fin 1 → Fin S200x1.rank)
  bcast_S1x600_S200x600_0_1 : S1x600.BroadcastsInDim S200x600 (![0, 1] : Fin 2 → Fin S200x600.rank)
  bcast_S200x1_S200x600_0_1 : S200x1.BroadcastsInDim S200x600 (![0, 1] : Fin 2 → Fin S200x600.rank)
  inb_S200x600_S200x600_0_0 : ∀ a, (![0, 0] : Fin 2 → Nat) a + S200x600.size a ≤ S200x600.size a
  h_S200x600 : 0 < S200x600.numel
  shapeCasts_S200x600_S200x600 : S200x600.ShapeCasts S200x600
  bitsLt_bf16_f32 : FTy.bits .bf16 < FTy.bits .f32
  inb_S1x512x600_S1x512x600_0_0_0 : ∀ a, (![0, 0, 0] : Fin 3 → Nat) a + S1x512x600.size a ≤ S1x512x600.size a
  h_S1x512x600 : 0 < S1x512x600.numel
  shapeCasts_S1x512x600_S512x600 : S1x512x600.ShapeCasts S512x600
  reduces_S200x512_S200 : S200x512.Reduces [1] S200
  shapeCasts_S200_S200x1 : S200.ShapeCasts S200x1
  transposes_S200x1_p1_0_S1x200 : S200x1.Transposes [1, 0] S1x200
  broadcasts_S200x1_S200x200 : S200x1.Broadcasts S200x200
  broadcasts_S1x200_S200x200 : S1x200.Broadcasts S200x200
  reduces_S200x200_S200 : S200x200.Reduces [1] S200
  iota_S200x200_d0_w32 : S200x200.Iotas .tc 32 [0]
  iota_S200x200_d1_w32 : S200x200.Iotas .tc 32 [1]
  reduces_S200x1_S1 : S200x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  dot_S200x600_S512x600_S200x512_1_1_0_0_n_n_wf : DotDims.WF S200x600 S512x600 S200x512 [1] [1] [0] [0] [] []
  dot_S200x512_S200x512_S200x200_1_1_0_0_n_n_wf : DotDims.WF S200x512 S200x512 S200x200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S200x600.size a ≤ S200x600.size a
  hwx0_0 : ∀ i : grid0.Coords, EltTy.bits .f32 = 32 ∨ (Rect.block (s := S200x600) S200x600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x600.size a ≤ S64x512x600.size a
  hwx0_1 : ∀ i : grid0.Coords, EltTy.bits .f32 = 32 ∨ (Rect.block (s := S64x512x600) S1x512x600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x600.size a ≤ S64x512x600.size a
  hwx0_2 : ∀ i : grid0.Coords, EltTy.bits .f32 = 32 ∨ (Rect.block (s := S64x512x600) S1x512x600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S64x8x128.size a
  hwx0_3 : ∀ i : grid0.Coords, EltTy.bits .f32 = 32 ∨ (Rect.block (s := S64x8x128) S1x8x128.size (cc0_transform_3 i) (hinb0_3 i)).WholeWords (EltTy.packing .f32)

variable [Facts₀]

def dot_S200x600_S512x600_S200x512_1_1_0_0_n_n : DotDims S200x600 S512x600 S200x512 where
  lhsContracting := [1]
  rhsContracting := [1]
  lhsNonContracting := [0]
  rhsNonContracting := [0]
  lhsBatch := []
  rhsBatch := []
  wf := dot_S200x600_S512x600_S200x512_1_1_0_0_n_n_wf
def dot_S200x512_S200x512_S200x200_1_1_0_0_n_n : DotDims S200x512 S200x512 S200x200 where
  lhsContracting := [1]
  rhsContracting := [1]
  lhsNonContracting := [0]
  rhsNonContracting := [0]
  lhsBatch := []
  rhsBatch := []
  wf := dot_S200x512_S200x512_S200x200_1_1_0_0_n_n_wf

abbrev win0_0 : Pipeline.Window sig grid0 :=
  Pipeline.Window.ofSpec (Memref.whole main_v11) S200x600.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x600 : Shape := ⟨3, ![64, 512, 600]⟩
abbrev S600 : Shape := ⟨1, ![600]⟩
abbrev S_ : Shape := ⟨0, ![]⟩
abbrev S600x64x512 : Shape := ⟨3, ![600, 64, 512]⟩
abbrev S200x64x512 : Shape := ⟨3, ![200, 64, 512]⟩
abbrev S600x1 : Shape := ⟨2, ![600, 1]⟩
abbrev S64x200x512 : Shape := ⟨3, ![64, 200, 512]⟩
abbrev S64x200x200 : Shape := ⟨3, ![64, 200, 200]⟩
abbrev S64x200 : Shape := ⟨2, ![64, 200]⟩
abbrev S64x200x1 : Shape := ⟨3, ![64, 200, 1]⟩
abbrev S64x1x200 : Shape := ⟨3, ![64, 1, 200]⟩
abbrev S200 : Shape := ⟨1, ![200]⟩
abbrev S200x1 : Shape := ⟨2, ![200, 1]⟩
abbrev S200x2 : Shape := ⟨2, ![200, 2]⟩
abbrev S64 : Shape := ⟨1, ![64]⟩

abbrev nBuf : Space → Nat
  | .hbm => 119
  | .vmem => 0
  | .smem => 0
  | _ => 0

abbrev bufTy : (tb : Table) → Fin (tcTables nBuf tb) → BufTy
  | .hbm, ⟨0, _⟩ => ⟨S64x512x600, .i32⟩
  | .hbm, ⟨1, _⟩ => ⟨S64x512x600, .f32⟩
  | .hbm, ⟨2, _⟩ => ⟨S64x512x600, .f32⟩
  | .hbm, ⟨3, _⟩ => ⟨S600, .i32⟩
  | .hbm, ⟨4, _⟩ => ⟨S_, .i32⟩
  | .hbm, ⟨5, _⟩ => ⟨S600, .i32⟩
  | .hbm, ⟨6, _⟩ => ⟨S600, .i32⟩
  | .hbm, ⟨7, _⟩ => ⟨S_, .i32⟩
  | .hbm, ⟨8, _⟩ => ⟨S_, .i32⟩
  | .hbm, ⟨9, _⟩ => ⟨S600, .i32⟩
  | .hbm, ⟨10, _⟩ => ⟨S600, .i32⟩
  | .hbm, ⟨11, _⟩ => ⟨S600, .i32⟩
  | .hbm, ⟨12, _⟩ => ⟨S_, .i32⟩
  | .hbm, ⟨13, _⟩ => ⟨S600, .i32⟩
  | .hbm, ⟨14, _⟩ => ⟨S600, .i1⟩
  | .hbm, ⟨15, _⟩ => ⟨S600, .i32⟩
  | .hbm, ⟨16, _⟩ => ⟨S600, .i32⟩
  | .hbm, ⟨17, _⟩ => ⟨S_, .i32⟩
  | .hbm, ⟨18, _⟩ => ⟨S600, .i32⟩
  | .hbm, ⟨19, _⟩ => ⟨S600, .i1⟩
  | .hbm, ⟨20, _⟩ => ⟨S600, .i1⟩
  | .hbm, ⟨21, _⟩ => ⟨S_, .i32⟩
  | .hbm, ⟨22, _⟩ => ⟨S600, .i32⟩
  | .hbm, ⟨23, _⟩ => ⟨S600, .i32⟩
  | .hbm, ⟨24, _⟩ => ⟨S600, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S600, .i32⟩
  | .hbm, ⟨32, _⟩ => ⟨S600, .i32⟩
  | .hbm, ⟨33, _⟩ => ⟨S_, .i32⟩
  | .hbm, ⟨34, _⟩ => ⟨S600, .i32⟩
  | .hbm, ⟨35, _⟩ => ⟨S600, .i1⟩
  | .hbm, ⟨36, _⟩ => ⟨S_, .i32⟩
  | .hbm, ⟨37, _⟩ => ⟨S600, .i32⟩
  | .hbm, ⟨38, _⟩ => ⟨S600, .i1⟩
  | .hbm, ⟨39, _⟩ => ⟨S_, .i32⟩
  | .hbm, ⟨40, _⟩ => ⟨S_, .i1⟩
  | .hbm, ⟨41, _⟩ => ⟨S600, .i1⟩
  | .hbm, ⟨42, _⟩ => ⟨S600, .i1⟩
  | .hbm, ⟨43, _⟩ => ⟨S600, .i1⟩
  | .hbm, ⟨44, _⟩ => ⟨S600, .i32⟩
  | .hbm, ⟨45, _⟩ => ⟨S600, .i32⟩
  | .hbm, ⟨46, _⟩ => ⟨S600, .i32⟩
  | .hbm, ⟨47, _⟩ => ⟨S600x64x512, .f32⟩
  | .hbm, ⟨48, _⟩ => ⟨S_, .f32⟩
  | .hbm, ⟨49, _⟩ => ⟨S200x64x512, .f32⟩
  | .hbm, ⟨50, _⟩ => ⟨S600x1, .i32⟩
  | .hbm, ⟨51, _⟩ => ⟨S200x64x512, .f32⟩
  | .hbm, ⟨52, _⟩ => ⟨S64x200x512, .f32⟩
  | .hbm, ⟨53, _⟩ => ⟨S600x64x512, .f32⟩
  | .hbm, ⟨54, _⟩ => ⟨S_, .f32⟩
  | .hbm, ⟨55, _⟩ => ⟨S200x64x512, .f32⟩
  | .hbm, ⟨56, _⟩ => ⟨S600x1, .i32⟩
  | .hbm, ⟨57, _⟩ => ⟨S200x64x512, .f32⟩
  | .hbm, ⟨58, _⟩ => ⟨S64x200x512, .f32⟩
  | .hbm, ⟨59, _⟩ => ⟨S64x200x200, .f32⟩
  | .hbm, ⟨60, _⟩ => ⟨S64x200x512, .f32⟩
  | .hbm, ⟨61, _⟩ => ⟨S_, .f32⟩
  | .hbm, ⟨62, _⟩ => ⟨S64x200, .f32⟩
  | .hbm, ⟨63, _⟩ => ⟨S64x200, .f32⟩
  | .hbm, ⟨64, _⟩ => ⟨S64x200x512, .f32⟩
  | .hbm, ⟨65, _⟩ => ⟨S_, .f32⟩
  | .hbm, ⟨66, _⟩ => ⟨S64x200, .f32⟩
  | .hbm, ⟨67, _⟩ => ⟨S64x200, .f32⟩
  | .hbm, ⟨68, _⟩ => ⟨S64x200x1, .f32⟩
  | .hbm, ⟨69, _⟩ => ⟨S64x1x200, .f32⟩
  | .hbm, ⟨70, _⟩ => ⟨S64x200x200, .f32⟩
  | .hbm, ⟨71, _⟩ => ⟨S64x200x200, .f32⟩
  | .hbm, ⟨72, _⟩ => ⟨S64x200x200, .f32⟩
  | .hbm, ⟨73, _⟩ => ⟨S_, .f32⟩
  | .hbm, ⟨74, _⟩ => ⟨S64x200x200, .f32⟩
  | .hbm, ⟨75, _⟩ => ⟨S64x200x200, .f32⟩
  | .hbm, ⟨76, _⟩ => ⟨S64x200x200, .f32⟩
  | .hbm, ⟨77, _⟩ => ⟨S_, .f32⟩
  | .hbm, ⟨78, _⟩ => ⟨S64x200, .f32⟩
  | .hbm, ⟨79, _⟩ => ⟨S_, .f32⟩
  | .hbm, ⟨80, _⟩ => ⟨S64x200, .f32⟩
  | .hbm, ⟨81, _⟩ => ⟨S64x200, .f32⟩
  | .hbm, ⟨82, _⟩ => ⟨S64x200x1, .f32⟩
  | .hbm, ⟨83, _⟩ => ⟨S64x200x200, .f32⟩
  | .hbm, ⟨84, _⟩ => ⟨S64x200x200, .f32⟩
  | .hbm, ⟨85, _⟩ => ⟨S64x200x200, .f32⟩
  | .hbm, ⟨86, _⟩ => ⟨S_, .f32⟩
  | .hbm, ⟨87, _⟩ => ⟨S64x200, .f32⟩
  | .hbm, ⟨88, _⟩ => ⟨S64x200x1, .f32⟩
  | .hbm, ⟨89, _⟩ => ⟨S64x200x1, .f32⟩
  | .hbm, ⟨90, _⟩ => ⟨S64x200x200, .f32⟩
  | .hbm, ⟨91, _⟩ => ⟨S64x200x200, .f32⟩
  | .hbm, ⟨92, _⟩ => ⟨S200, .i32⟩
  | .hbm, ⟨93, _⟩ => ⟨S_, .i32⟩
  | .hbm, ⟨94, _⟩ => ⟨S200, .i32⟩
  | .hbm, ⟨95, _⟩ => ⟨S200, .i1⟩
  | .hbm, ⟨96, _⟩ => ⟨S_, .i32⟩
  | .hbm, ⟨97, _⟩ => ⟨S200, .i32⟩
  | .hbm, ⟨98, _⟩ => ⟨S200, .i32⟩
  | .hbm, ⟨99, _⟩ => ⟨S200, .i32⟩
  | .hbm, ⟨100, _⟩ => ⟨S_, .i32⟩
  | .hbm, ⟨101, _⟩ => ⟨S200, .i32⟩
  | .hbm, ⟨102, _⟩ => ⟨S200, .i1⟩
  | .hbm, ⟨103, _⟩ => ⟨S_, .i32⟩
  | .hbm, ⟨104, _⟩ => ⟨S200, .i32⟩
  | .hbm, ⟨105, _⟩ => ⟨S200, .i32⟩
  | .hbm, ⟨106, _⟩ => ⟨S200, .i32⟩
  | .hbm, ⟨107, _⟩ => ⟨S200x1, .i32⟩
  | .hbm, ⟨108, _⟩ => ⟨S200x1, .i32⟩
  | .hbm, ⟨109, _⟩ => ⟨S200x2, .i32⟩
  | .hbm, ⟨110, _⟩ => ⟨S64x200, .f32⟩
  | .hbm, ⟨111, _⟩ => ⟨S_, .f32⟩
  | .hbm, ⟨112, _⟩ => ⟨S64, .f32⟩
  | .hbm, ⟨113, _⟩ => ⟨S_, .f32⟩
  | .hbm, ⟨114, _⟩ => ⟨S64, .f32⟩
  | .hbm, ⟨115, _⟩ => ⟨S64, .f32⟩
  | .hbm, ⟨116, _⟩ => ⟨S64, .f32⟩
  | .hbm, ⟨117, _⟩ => ⟨S_, .f32⟩
  | .hbm, ⟨118, _⟩ => ⟨S_, .f32⟩
  | _, _ => ⟨S64x512x600, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_1 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_v16 : Ref sig .tc := ⟨.hbm, 63, rfl⟩
abbrev main_call3_v0 : Ref sig .tc := ⟨.hbm, 64, rfl⟩
abbrev main_call3_cst : Ref sig .tc := ⟨.hbm, 65, rfl⟩
abbrev main_call3_v1 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_3 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_call4_cst : Ref sig .tc := ⟨.hbm, 77, rfl⟩
abbrev main_call4_v0 : Ref sig .tc := ⟨.hbm, 78, rfl⟩
abbrev main_call4_cst_0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_v6 : Ref sig .tc := ⟨.hbm, 85, rfl⟩
abbrev main_call4_cst_1 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_v26 : Ref sig .tc := ⟨.hbm, 91, rfl⟩
abbrev main_v27 : Ref sig .tc := ⟨.hbm, 92, rfl⟩
abbrev main_c_4 : Ref sig .tc := ⟨.hbm, 93, rfl⟩
abbrev main_v28 : Ref sig .tc := ⟨.hbm, 94, rfl⟩
abbrev main_v29 : Ref sig .tc := ⟨.hbm, 95, rfl⟩
abbrev main_c_5 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_c_6 : Ref sig .tc := ⟨.hbm, 100, rfl⟩
abbrev main_v33 : Ref sig .tc := ⟨.hbm, 101, rfl⟩
abbrev main_v34 : Ref sig .tc := ⟨.hbm, 102, rfl⟩
abbrev main_c_7 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_cst_8 : Ref sig .tc := ⟨.hbm, 111, rfl⟩
abbrev main_v42 : Ref sig .tc := ⟨.hbm, 112, rfl⟩
abbrev main_cst_9 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_cst_10 : Ref sig .tc := ⟨.hbm, 117, rfl⟩
abbrev main_v46 : Ref sig .tc := ⟨.hbm, 118, rfl⟩

abbrev nD : Nat := 1
abbrev τ : Topo := Topo.v7x

variable {F : FTy → Type} [FloatOps F]

class Facts₀ : Prop where
  bcast_S_S600 : S_.BroadcastsInDim S600 (![] : Fin 0 → Fin S600.rank)
  transposes_S64x512x600_S600x64x512_2_0_1 : S64x512x600.Transposes [2, 0, 1] S600x64x512
  bcast_S_S200x64x512 : S_.BroadcastsInDim S200x64x512 (![] : Fin 0 → Fin S200x64x512.rank)
  bcast_S600_S600x1_0 : S600.BroadcastsInDim S600x1 (![0] : Fin 1 → Fin S600x1.rank)
  transposes_S200x64x512_S64x200x512_1_0_2 : S200x64x512.Transposes [1, 0, 2] S64x200x512
  reducesTo_S64x200x512_S64x200_d2 : S64x200x512.ReducesTo [2] S64x200
  h_S_ : 0 < S_.numel
  bcast_S64x200_S64x200x1_0_1 : S64x200.BroadcastsInDim S64x200x1 (![0, 1] : Fin 2 → Fin S64x200x1.rank)
  bcast_S64x200_S64x1x200_0_2 : S64x200.BroadcastsInDim S64x1x200 (![0, 2] : Fin 2 → Fin S64x1x200.rank)
  bcast_S64x200x1_S64x200x200_0_1_2 : S64x200x1.BroadcastsInDim S64x200x200 (![0, 1, 2] : Fin 3 → Fin S64x200x200.rank)
  bcast_S64x1x200_S64x200x200_0_1_2 : S64x1x200.BroadcastsInDim S64x200x200 (![0, 1, 2] : Fin 3 → Fin S64x200x200.rank)
  bcast_S_S64x200x200 : S_.BroadcastsInDim S64x200x200 (![] : Fin 0 → Fin S64x200x200.rank)
  reducesTo_S64x200x200_S64x200_d2 : S64x200x200.ReducesTo [2] S64x200
  bcast_S_S64x200 : S_.BroadcastsInDim S64x200 (![] : Fin 0 → Fin S64x200.rank)
  bcast_S_S200 : S_.BroadcastsInDim S200 (![] : Fin 0 → Fin S200.rank)
  bcast_S200_S200x1_0 : S200.BroadcastsInDim S200x1 (![0] : Fin 1 → Fin S200x1.rank)
  concatenates_S200x1_S200x1_S200x2_d1 : Shape.Concatenates [S200x1, S200x1] S200x2 1
  reducesTo_S64x200_S64_d1 : S64x200.ReducesTo [1] S64
  bcast_S_S64 : S_.BroadcastsInDim S64 (![] : Fin 0 → Fin S64.rank)
  reducesTo_S64_S_d0 : S64.ReducesTo [0] S_
  scatter_S200x64x512_S600x1_S600x64x512_12_0_0_1_wf : ScatterDims.WF S200x64x512 S600x1 S600x64x512 [1, 2] [0] [0] 1
  dot_S64x200x512_S64x200x512_S64x200x200_2_2_1_1_0_0_wf : DotDims.WF S64x200x512 S64x200x512 S64x200x200 [2] [2] [1] [1] [0] [0]
  gather_S64x200x200_S200x2_S64x200_0_12_n_n_12_1_6411_wf : GatherDims.WF S64x200x200 S200x2 S64x200 [0] [1, 2] [] [1, 2] [] 1 ![64, 1, 1]

variable [Facts₀]

def scatter_S200x64x512_S600x1_S600x64x512_12_0_0_1 : ScatterDims S200x64x512 S600x1 S600x64x512 where
  updateWindowDims := [1, 2]
  insertedWindowDims := [0]
  scatterDimsToOperandDims := [0]
  indexVectorDim := 1
  wf := scatter_S200x64x512_S600x1_S600x64x512_12_0_0_1_wf
def dot_S64x200x512_S64x200x512_S64x200x200_2_2_1_1_0_0 : DotDims S64x200x512 S64x200x512 S64x200x200 where
  lhsContracting := [2]
  rhsContracting := [2]
  lhsNonContracting := [1]
  rhsNonContracting := [1]
  lhsBatch := [0]
  rhsBatch := [0]
  wf := dot_S64x200x512_S64x200x512_S64x200x200_2_2_1_1_0_0_wf
def gather_S64x200x200_S200x2_S64x200_0_12_n_n_12_1_6411 : GatherDims S64x200x200 S200x2 S64x200 where
  offsetDims := [0]
  collapsedSliceDims := [1, 2]
  operandBatchingDims := []
  startIndicesBatchingDims := []
  startIndexMap := [1, 2]
  indexVectorDim := 1
  sliceSizes := ![64, 1, 1]
  wf := gather_S64x200x200_S200x2_S64x200_0_12_n_n_12_1_6411_wf

class Facts : Prop extends Facts₀ where

variable [Facts]
-- ==== Proof.Spec.lean ====
/-
  The mathematics both programs compute, on the extended reals, over plain index types.

  For one batch element the two feature maps `x, y : F × T → ℝ̄` (F = 512 channels, T = 600 time steps) are summed
  over time segments: time step `t` belongs to segment `seg t`, and `merged seg x m f` is the sum of `x f t` over the
  steps of segment `m` (M = 200 segments).  `cosv A B m n` is the cosine of row `m` of `A` and row `n` of `B` with the
  denominator clamped from below by `eps`; `logp C` is the row-wise log-softmax of `C`; the loss of the batch element
  is minus the mean of the diagonal of `logp`.  The kernel reads the diagonal by a masked row sum and negates before
  it divides; the reference gathers the diagonal and divides before it negates: `lossKer_eq_lossRef`.
-/
import Idealize.ShloMosaic.PureOps.Ideal
import Idealize.ShloMosaic.Lib.ValueIdx

noncomputable section

namespace Cert.SyncLoss

open Idealize.ShloMosaic

/-- The lower clamp of the cosine's denominator (the two programs share the literal). -/
def eps : EReal := Ideal.ofBits .f32 0x322BCC77#32
/-- The number of segments, as the float both programs divide by. -/
def count : EReal := Ideal.ofBits .f32 0x43480000#32
/-- The float zero both programs start their sums from. -/
def zero : EReal := Ideal.ofBits .f32 0x00000000#32

/-- Segment sums: entry `(m, f)` is the sum of `x f t` over the time steps `t` whose segment number is `m`. -/
def merged (seg : Fin 600 → BitVec 32) (x : Fin 512 → Fin 600 → EReal) (m : Fin 200) (f : Fin 512) : EReal :=
  ∑ t : Fin 600, if (seg t).toInt = (m.val : Int) then x f t else 0

/-- The Euclidean norm of row `m`. -/
def norm (A : Fin 200 → Fin 512 → EReal) (m : Fin 200) : EReal := Ideal.sqrt (∑ f : Fin 512, A m f * A m f)

/-- The clamped cosine of row `m` of `A` and row `n` of `B`. -/
def cosv (A B : Fin 200 → Fin 512 → EReal) (m n : Fin 200) : EReal :=
  Ideal.div (∑ f : Fin 512, A m f * B n f) (max (norm A m * norm B n) eps)

/-- The maximum of row `m`, folded from `⊥`. -/
def rowmax (C : Fin 200 → Fin 200 → EReal) (m : Fin 200) : EReal := Finset.univ.fold max ⊥ (fun n : Fin 200 => C m n)

/-- Row `m` shifted by its maximum. -/
def shifted (C : Fin 200 → Fin 200 → EReal) (m n : Fin 200) : EReal := C m n - rowmax C m

/-- The row-wise log-softmax. -/
def logp (C : Fin 200 → Fin 200 → EReal) (m n : Fin 200) : EReal :=
  shifted C m n - Ideal.log (∑ k : Fin 200, Ideal.exp (shifted C m k))

/-- The reference's loss of one batch element: the diagonal summed, divided by the count, negated. -/
def lossRef (C : Fin 200 → Fin 200 → EReal) : EReal := -(Ideal.div (∑ m : Fin 200, logp C m m) count)

/-- The kernel's loss of one batch element: each row summed under the diagonal mask, the rows summed, subtracted
    from zero, divided by the count. -/
def lossKer (C : Fin 200 → Fin 200 → EReal) : EReal :=
  Ideal.div (0 - ∑ m : Fin 200, ∑ n : Fin 200, if m = n then logp C m n else 0) count

/-- The whole result: the batch elements' losses summed from the float zero. -/
def total (L : Fin 64 → EReal) : EReal := zero + ∑ b : Fin 64, L b

/-- The result as one function of the segment numbers and the two feature arrays. -/
def G (seg : Fin 600 → BitVec 32) (x y : Fin 64 → Fin 512 → Fin 600 → EReal) : EReal :=
  total fun b => lossRef (cosv (merged seg (x b)) (merged seg (y b)))

end Cert.SyncLoss

end
-- ==== Proof.LibRowsContract.lean ====
/-
  A product of rows read at one entry.

  For the dimension numbers of an [M, K] by [N, K] product that contracts the second axis of both operands (no batch
  axis) — every row of the left operand against every row of the right one — the sum over the contraction index that the
  exact product takes at result entry (p, q) is the sum over k < K of l[p, k] · r[q, k]. Stated for the sum itself, for a
  matrix unit's product into a zero accumulator, and for a host dot product, at the exact (extended real) reading of floats.
-/
import Idealize.ShloMosaic.PureOps.Ideal.Laws
import Idealize.ShloMosaic.Lib.ValueIdx

noncomputable section

namespace Cert.LibRowsContract

open Idealize.ShloMosaic Idealize.ShloMosaic.ValueIdx

/-- The dimension numbers of a product of rows: [M, K] with [N, K], both second axes contracted. -/
abbrev rowsDims (M K N : Nat) (h : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := h

variable (M K N : Nat) (h : DotDims.WF ⟨2, ![M, K]⟩ ⟨2, ![N, K]⟩ ⟨2, ![M, N]⟩ [1] [1] [0] [0] [] [])

/-- The contraction index has one axis, of extent K. -/
theorem rows_rank : (rowsDims M K N h).contr.rank = 1 := rfl
theorem rows_size : (rowsDims M K N h).contr.size ⟨0, Nat.one_pos⟩ = K := rfl

/-- At result entry (p, q) and contraction position k the left operand is read at (p, k) … -/
theorem rows_lhsIdx (p : Fin M) (q : Fin N) (k : Fin K) :
    (rowsDims M K N h).lhsIdx (ix2 p q) ((contrEquiv1 (rowsDims M K N h) K rfl rfl).symm k) = ix2 p k :=
  funext fun a => Fin.ext (by
    have hk := contrEquiv1_symm_val (rowsDims M K N h) K rfl rfl k
    match a with
    | ⟨0, _⟩ => rfl
    | ⟨1, _⟩ => exact ((rowsDims M K N h).lhsIdx_val_of_single rfl _ _).trans hk)

/-- … and the right operand at (q, k). -/
theorem rows_rhsIdx (p : Fin M) (q : Fin N) (k : Fin K) :
    (rowsDims M K N h).rhsIdx (ix2 p q) ((contrEquiv1 (rowsDims M K N h) K rfl rfl).symm k) = ix2 q k :=
  funext fun a => Fin.ext (by
    have hk := contrEquiv1_symm_val (rowsDims M K N h) K rfl rfl k
    match a with
    | ⟨0, _⟩ => rfl
    | ⟨1, _⟩ => exact ((rowsDims M K N h).rhsIdx_val_of_single rfl _ _).trans hk)

/-- The contraction sum at entry (p, q) is the sum over k of l[p, k] · r[q, k]. -/
theorem rows_sum (l : (⟨2, ![M, K]⟩ : Shape).Idx → EReal) (r : (⟨2, ![N, K]⟩ : Shape).Idx → EReal)
    (p : Fin M) (q : Fin N) :
    ∑ k : (rowsDims M K N h).contr.Idx,
        l ((rowsDims M K N h).lhsIdx (ix2 p q) k) * r ((rowsDims M K N h).rhsIdx (ix2 p q) k)
      = ∑ k : Fin K, l (ix2 p k) * r (ix2 q k) := by
  rw [← Equiv.sum_comp (contrEquiv1 (rowsDims M K N h) K rfl rfl).symm]
  refine Finset.sum_congr rfl fun k _ => ?_
  rw [rows_lhsIdx, rows_rhsIdx]

/-- A matrix unit's product of rows into the zero accumulator, at entry (p, q). -/
theorem matmul_rows_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (rowsDims M K N h) prec l r (constant ⟨2, ![M, N]⟩ .f32 0x00000000#32) (ix2 p q)
      = ∑ k : Fin K, l (ix2 p k) * r (ix2 q k) :=
  (Ideal.matmul_constant_zero_apply (rowsDims M K N h) prec l r (ix2 p q)).trans (rows_sum M K N h l r p q)

/-- A host dot product of rows, at entry (p, q). -/
theorem dotGeneral_rows_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (rowsDims M K N h) prec sched l r (ix2 p q) = ∑ k : Fin K, l (ix2 p k) * r (ix2 q k) :=
  (Ideal.dotGeneral_apply (rowsDims M K N h) prec sched l r (ix2 p q)).trans (rows_sum M K N h l r p q)

end Cert.LibRowsContract

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.KerPay.lean ====
import proofs.«176695_j24215025615023_2_alg».proof.Proof.Gen.KernelIdeal.Skeleton
import proofs.«176695_j24215025615023_2_alg».proof.Proof.Spec
import proofs.«176695_j24215025615023_2_alg».proof.Proof.LibRowsContract
import proofs.«176695_j24215025615023_2_alg».proof.Proof.LibColumn
import proofs.«176695_j24215025615023_2_alg».proof.Proof.LibKeepdims
import proofs.«176695_j24215025615023_2_alg».proof.Proof.LibRowFold
import Idealize.ShloMosaic.Lib.ValueLayout
import Idealize.ShloMosaic.Lib.Pipeline.Value

noncomputable section

/-
  The kernel body's arithmetic read at an index, on the extended reals.

  The body holds the one-hot segment matrix S [200, 600] and one batch element's two feature blocks [1, 512, 600]. Its
  two merges are products of rows: entry (m, f) is the sum over t of S[m, t] · x[0, f, t]. From the merged matrices A, B
  it forms the clamped cosines, their row-wise log-softmax, the diagonal by a masked row sum, and minus the diagonal's
  mean, spread over the output block. Each stage below is the printed operations of that stage as one term
  (`pay2_eq`, `pay1_eq`: the printed payloads are their composition), read at an index by the layout lemmas.
-/
namespace Cert.KernelIdeal.KerPay

open Idealize.ShloMosaic Idealize.ShloMosaic.ValueIdx Cert.KernelIdeal Cert.KernelIdeal.Gen

/-! ## The stages as terms -/

/-- One merge: the one-hot matrix times the feature block's rows. -/
def mergeK (v0 : Vec Ideal S200x600 .f32) (v3 : Vec Ideal S1x512x600 .f32) : FVec Ideal S200x512 .f32 :=
  matmul (F := Ideal) dot_S200x600_S512x600_S200x512_1_1_0_0_n_n none
    (truncf .bf16 (shapeCast S200x600 v0 shapeCasts_S200x600_S200x600) bitsLt_bf16_f32)
    (truncf .bf16 (shapeCast S512x600 v3 shapeCasts_S1x512x600_S512x600) bitsLt_bf16_f32)
    (constant S200x512 .f32 0x00000000#32)

/-- The row norms, kept as a column. -/
def normK (A : FVec Ideal S200x512 .f32) : FVec Ideal S200x1 .f32 :=
  sqrt (shapeCast S200x1 (multiReduction .add [1] S200 (mulf A A) 0x00000000#32 reduces_S200x512_S200 (.inl rfl) rfl) shapeCasts_S200_S200x1)

/-- The clamped cosines. -/
def cosK (A B : FVec Ideal S200x512 .f32) : FVec Ideal S200x200 .f32 :=
  divf (matmul (F := Ideal) dot_S200x512_S200x512_S200x200_1_1_0_0_n_n none (truncf .bf16 A bitsLt_bf16_f32) (truncf .bf16 B bitsLt_bf16_f32)
      (constant S200x200 .f32 0x00000000#32))
    (maximumf (mulf (broadcastTo S200x200 (normK A) broadcasts_S200x1_S200x200)
        (broadcastTo S200x200 (transpose S1x200 [1, 0] (normK B) transposes_S200x1_p1_0_S1x200) broadcasts_S1x200_S200x200))
      (broadcast S200x200 (Scalar.ofBits .f32 0x322BCC77#32)))

/-- The rows shifted by their maxima. -/
def shiftedK (C : FVec Ideal S200x200 .f32) : FVec Ideal S200x200 .f32 :=
  subf C (broadcastTo S200x200 (shapeCast S200x1
    (multiReduction .maximumf [1] S200 C 0xFF800000#32 reduces_S200x200_S200 (.inl rfl) rfl) shapeCasts_S200_S200x1) broadcasts_S200x1_S200x200)

/-- The row-wise log-softmax. -/
def logpK (C : FVec Ideal S200x200 .f32) : FVec Ideal S200x200 .f32 :=
  subf (shiftedK C) (broadcastTo S200x200 (log (shapeCast S200x1
    (multiReduction .add [1] S200 (exp (shiftedK C)) 0x00000000#32 reduces_S200x200_S200 (.inl rfl) rfl) shapeCasts_S200_S200x1)) broadcasts_S200x1_S200x200)

/-- The body's second payload is the stages composed. -/
theorem pay2_eq (v0 : Vec Ideal S200x600 .f32) (v3 v6 : Vec Ideal S1x512x600 .f32) :
    k0_pay2 v0 v3 v6 = logpK (cosK (mergeK v0 v3) (mergeK v0 v6)) := rfl

/-! ## The stages at an index -/

theorem mergeK_apply (v0 : Vec Ideal S200x600 .f32) (v3 : Vec Ideal S1x512x600 .f32) (m : Fin 200) (f : Fin 512) :
    mergeK v0 v3 (ix2 m f) = ∑ t : Fin 600, v0 (ix2 m t) * v3 (ix3 (0 : Fin 1) f t) := by
  unfold mergeK
  refine (Cert.LibRowsContract.matmul_rows_apply 200 600 512 _ none _ _ m f).trans ?_
  refine Finset.sum_congr rfl fun t _ => ?_
  rw [truncf_apply, truncf_apply, shapeCast_self, shapeCast_1ab_ab_apply]

theorem normK_apply (A : FVec Ideal S200x512 .f32) (m : Fin 200) (u : Fin 1) :
    normK A (ix2 m u) = Cert.SyncLoss.norm (fun m f => A (ix2 m f)) m := by
  unfold normK Cert.SyncLoss.norm
  show Ideal.sqrt _ = Ideal.sqrt _
  refine congrArg Ideal.sqrt ?_
  refine (Cert.Lib.Keepdims.shapeCast_a_a1_apply _ _ m u).trans ?_
  exact Cert.LibColumn.laneSum_apply (mulf A A) _ _ _ m

theorem cosK_apply (A B : FVec Ideal S200x512 .f32) (m n : Fin 200) :
    cosK A B (ix2 m n) = Cert.SyncLoss.cosv (fun m f => A (ix2 m f)) (fun n f => B (ix2 n f)) m n := by
  unfold cosK Cert.SyncLoss.cosv
  refine congrArg₂ Ideal.div ?_ (congrArg₂ max (congrArg₂ (· * ·) ?_ ?_) rfl)
  · exact Cert.LibRowsContract.matmul_rows_apply 200 512 200 _ none _ _ m n
  · exact (Cert.Lib.Keepdims.broadcastTo_a1_ab_apply _ _ m n).trans (normK_apply A m 0)
  · refine (broadcastTo_1b_ab_apply _ _ m n).trans ?_
    exact (transpose_ix2_apply _ _ (0 : Fin 1) n).trans (normK_apply B n 0)

theorem negInf : Ideal.ofBits .f32 0xFF800000#32 = (⊥ : EReal) := by simp [Ideal.ofBits, Ideal.ieee]

theorem shiftedK_apply (C : FVec Ideal S200x200 .f32) (m n : Fin 200) :
    shiftedK C (ix2 m n) = Cert.SyncLoss.shifted (fun m n => C (ix2 m n)) m n := by
  unfold shiftedK Cert.SyncLoss.shifted Cert.SyncLoss.rowmax
  refine congrArg (C (ix2 m n) - ·) ?_
  refine (Cert.Lib.Keepdims.broadcastTo_a1_ab_apply _ _ m n).trans ?_
  refine (Cert.Lib.Keepdims.shapeCast_a_a1_apply _ _ m 0).trans ?_
  refine (Cert.Lib.RowFold.multiReduction_maximumf_row C _ _ _ _ m).trans ?_
  rw [negInf]

theorem logpK_apply (C : FVec Ideal S200x200 .f32) (m n : Fin 200) :
    logpK C (ix2 m n) = Cert.SyncLoss.logp (fun m n => C (ix2 m n)) m n := by
  unfold logpK Cert.SyncLoss.logp
  refine congrArg₂ (· - ·) (shiftedK_apply C m n) ?_
  refine (Cert.Lib.Keepdims.broadcastTo_a1_ab_apply _ _ m n).trans ?_
  show Ideal.log _ = Ideal.log _
  refine congrArg Ideal.log ?_
  refine (Cert.Lib.Keepdims.shapeCast_a_a1_apply _ _ m 0).trans ?_
  refine (Cert.LibColumn.laneSum_apply _ _ _ _ m).trans ?_
  refine Finset.sum_congr rfl fun k _ => ?_
  show Ideal.exp (shiftedK C (ix2 m k)) = _
  rw [shiftedK_apply]

end Cert.KernelIdeal.KerPay

end
-- ==== Proof.KerOut.lean ====
import proofs.«176695_j24215025615023_2_alg».proof.Proof.KerPay

noncomputable section

/-
  The kernel body's last stage and the whole block it stores.

  From the log-softmax L and the diagonal mask the body sums each row under the mask, sums the rows, subtracts the
  total from zero, divides by the number of segments, and spreads the one number over the [1, 8, 128] output block.
  The mask at (m, n) is the comparison of the two coordinates, so the masked row sum keeps the diagonal entry only.
-/
namespace Cert.KernelIdeal.KerPay

open Idealize.ShloMosaic Idealize.ShloMosaic.ValueIdx Cert.KernelIdeal Cert.KernelIdeal.Gen

/-- The diagonal mask at (m, n): the two coordinates compared as 32-bit integers. -/
theorem pay3_apply (m n : Fin 200) :
    k0_pay3 (ix2 m n) = IntOp.cmpi .eq (BitVec.ofNat 32 m.val) (BitVec.ofNat 32 n.val) := by
  unfold k0_pay3
  show IntOp.cmpi .eq (iota .tc S200x200 32 [0] iota_S200x200_d0_w32 (ix2 m n)) (iota .tc S200x200 32 [1] iota_S200x200_d1_w32 (ix2 m n)) = _
  rw [iota_single_apply, iota_single_apply]

/-- Selecting under the mask keeps the first value on the diagonal and the second off it. -/
theorem select_pay3 {α : Type} (m n : Fin 200) (a b : α) :
    Scalar.select (k0_pay3 (ix2 m n)) a b = if m = n then a else b := by
  rw [pay3_apply]
  by_cases h : m = n
  · subst h
    rw [if_pos rfl]
    have : IntOp.cmpi .eq (BitVec.ofNat 32 m.val) (BitVec.ofNat 32 m.val) = 1#1 := by simp [IntOp.cmpi]
    rw [this]; exact select_one a b
  · rw [if_neg h]
    have hne : BitVec.ofNat 32 m.val ≠ BitVec.ofNat 32 n.val := by
      intro e
      have := congrArg BitVec.toNat e
      rw [BitVec.toNat_ofNat, BitVec.toNat_ofNat, Nat.mod_eq_of_lt (by have := m.isLt; omega), Nat.mod_eq_of_lt (by have := n.isLt; omega)] at this
      exact h (Fin.ext this)
    have : IntOp.cmpi .eq (BitVec.ofNat 32 m.val) (BitVec.ofNat 32 n.val) = 0#1 := by
      show BitVec.ofBool (BitVec.ofNat 32 m.val == BitVec.ofNat 32 n.val) = 0#1
      rw [beq_eq_false_iff_ne.mpr hne]; rfl
    rw [this]; exact select_zero a b

/-- The last stage as one term of the log-softmax, the mask and the float zero. -/
def outK (L : FVec Ideal S200x200 .f32) (msk : IVec S200x200 1) (z : Ideal .f32) : FVec Ideal S1x8x128 .f32 :=
  broadcastTo S1x8x128 (shapeCast S1x1x1
    (divf (subf (broadcast S1x1 (Scalar.ofBits .f32 0x00000000#32))
        (shapeCast S1x1 (multiReduction .add [0] S1
          (shapeCast S200x1 (multiReduction .add [1] S200 (select msk L (broadcast S200x200 z)) 0x00000000#32 reduces_S200x200_S200 (.inl rfl) rfl) shapeCasts_S200_S200x1)
          0x00000000#32 reduces_S200x1_S1 (.inl rfl) rfl) shapeCasts_S1_S1x1))
      (broadcast S1x1 (Scalar.ofBits .f32 0x43480000#32))) shapeCasts_S1x1_S1x1x1) broadcasts_S1x1x1_S1x8x128

theorem pay1_eq (L : FVec Ideal S200x200 .f32) (msk : IVec S200x200 1) (z : Ideal .f32) : k0_pay1 L msk z = outK L msk z := rfl

/-- A sum over the rows of a [200, 1] column from the zero accumulator is the sum of its entries. -/
theorem colSum_apply (src : FVec Ideal S200x1 .f32) (u : Fin 1) :
    multiReduction .add [0] S1 src 0x00000000#32 reduces_S200x1_S1 (.inl rfl) rfl (ix1 u) = ∑ k : Fin 200, src (ix2 k u) := by
  refine (Ideal.multiReduction_add_single src 0x00000000#32 reduces_S200x1_S1 (.inl rfl) rfl (ix1 u)).trans ?_
  refine Finset.sum_congr rfl fun k _ => congrArg src ?_
  funext a
  exact Fin.ext (by match a with | ⟨0, _⟩ => rfl | ⟨1, _⟩ => rfl)

/-- Every entry of the stored block is the batch element's loss in the kernel's arrangement. -/
theorem outK_apply (L : FVec Ideal S200x200 .f32) (msk : IVec S200x200 1) (y : S1x8x128.Idx) :
    outK L msk (Scalar.ofBits .f32 0x00000000#32) y
      = Ideal.div (0 - ∑ m : Fin 200, ∑ n : Fin 200, Scalar.select (msk (ix2 m n)) (L (ix2 m n)) 0) Cert.SyncLoss.count := by
  unfold outK
  refine (broadcastTo_apply _ broadcasts_S1x1x1_S1x8x128 y (ix3 (0 : Fin 1) (0 : Fin 1) (0 : Fin 1)) (fun a => by
    match a with | ⟨0, _⟩ => rfl | ⟨1, _⟩ => rfl | ⟨2, _⟩ => rfl)).trans ?_
  refine (shapeCast_ab_1ab_apply _ _ (0 : Fin 1) (0 : Fin 1) (0 : Fin 1)).trans ?_
  show Ideal.div (Ideal.ofBits .f32 0x00000000#32 - _) (Ideal.ofBits .f32 0x43480000#32) = _
  rw [Ideal.ofBits_zero_f32]
  refine congrArg (fun s => Ideal.div (0 - s) Cert.SyncLoss.count) ?_
  refine (Cert.Lib.Keepdims.shapeCast_a_a1_apply _ _ (0 : Fin 1) (0 : Fin 1)).trans ?_
  refine (colSum_apply _ 0).trans ?_
  refine Finset.sum_congr rfl fun m _ => ?_
  refine (Cert.Lib.Keepdims.shapeCast_a_a1_apply _ _ m (0 : Fin 1)).trans ?_
  refine (Cert.LibColumn.laneSum_apply _ _ _ _ m).trans ?_
  refine Finset.sum_congr rfl fun n _ => ?_
  show Scalar.select (msk (ix2 m n)) (L (ix2 m n)) (Ideal.ofBits .f32 0x00000000#32) = _
  rw [Ideal.ofBits_zero_f32]

/-- The body's stored block, entry by entry, from the one-hot matrix and the two feature blocks: the kernel's
    arrangement of the loss of the cosines of the two merged matrices. -/
theorem block_apply (v0 : Vec Ideal S200x600 .f32) (v3 v6 : Vec Ideal S1x512x600 .f32) (y : S1x8x128.Idx) :
    k0_pay1 (k0_pay2 v0 v3 v6) k0_pay3 (Scalar.ofBits .f32 0x00000000#32) y
      = Cert.SyncLoss.lossKer (Cert.SyncLoss.cosv
          (fun m f => ∑ t : Fin 600, v0 (ix2 m t) * v3 (ix3 (0 : Fin 1) f t))
          (fun n f => ∑ t : Fin 600, v0 (ix2 n t) * v6 (ix3 (0 : Fin 1) f t))) := by
  rw [pay1_eq, outK_apply, pay2_eq]
  unfold Cert.SyncLoss.lossKer
  refine congrArg (fun s => Ideal.div (0 - s) Cert.SyncLoss.count) ?_
  refine Finset.sum_congr rfl fun m _ => Finset.sum_congr rfl fun n _ => ?_
  rw [select_pay3, logpK_apply]
  refine congrArg (fun C => if m = n then Cert.SyncLoss.logp C m n else 0) ?_
  funext m' n'
  rw [cosK_apply]
  refine congrArg₂ (fun A B => Cert.SyncLoss.cosv A B m' n') ?_ ?_
  · funext a f; exact mergeK_apply v0 v3 a f
  · funext a f; exact mergeK_apply v0 v6 a f

end Cert.KernelIdeal.KerPay

end
-- ==== Proof.KerValue.lean ====
import proofs.«176695_j24215025615023_2_alg».proof.Proof.Gen.KernelIdeal.Frame
import proofs.«176695_j24215025615023_2_alg».proof.Proof.KerOut
import Idealize.ShloMosaic.Lib.Pipeline.Value

noncomputable section

/-
  From the blocks the kernel writes back to the whole output array.

  Grid point t stages the whole one-hot matrix, batch element t of the two feature arrays, and writes block t of the
  output [64, 8, 128]: every entry of that block is the loss of batch element t. The 64 blocks tile the output, so after
  the run the output array at (b, ·, ·) is the loss of batch element b.
-/
namespace Cert.KernelIdeal.KerValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The loss of batch element b in the kernel's arrangement, from the one-hot matrix S and the two feature arrays. -/
def lossOf (S : FVec Ideal S200x600 .f32) (X Y : FVec Ideal S64x512x600 .f32) (b : Fin 64) : EReal :=
  Cert.SyncLoss.lossKer (Cert.SyncLoss.cosv
    (fun a f => ∑ t' : Fin 600, S (ix2 a t') * X (ix3 b f t'))
    (fun a f => ∑ t' : Fin 600, S (ix2 a t') * Y (ix3 b f t')))

/-- The output array: entry (b, ·, ·) is the loss of batch element b. -/
def Gout (S : FVec Ideal S200x600 .f32) (X Y : FVec Ideal S64x512x600 .f32) : FVec Ideal S64x8x128 .f32 :=
  fun i => lossOf S X Y ⟨(i 0).val, (i 0).isLt⟩

/-- The printed index maps over the grid: the one-hot matrix's block never moves, the feature blocks and the output
    block move with the grid point along the batch axis. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The one-hot matrix's block at any point is the whole matrix. -/
theorem read0 (c : Dev nD) (t : Fin cfg0.N) (a : Fin 200) (t' : Fin 600) :
    iblk m c 0 t (ix2 a t') = V m c main_v11 (ix2 a t') := by
  obtain ⟨e0, e1, -⟩ := idx_facts t
  show V m c main_v11 (((cfg0.win 0).blk t).view.emb (ix2 a t')) = V m c main_v11 (ix2 a t')
  refine congrArg _ (funext fun ax => Fin.ext ?_)
  match ax with
  | ⟨0, _⟩ => show win0_0.index t (0 : Fin 2) * 200 + 1 * a.val = a.val; omega
  | ⟨1, _⟩ => show win0_0.index t (1 : Fin 2) * 600 + 1 * t'.val = t'.val; omega

theorem tlt (t : Fin cfg0.N) : t.val < 64 := by have := t.isLt; have hN : cfg0.N = 64 := N_0; omega

/-- A feature array's block at point t is batch element t. -/
theorem read1 (c : Dev nD) (t : Fin cfg0.N) (f : Fin 512) (t' : Fin 600) :
    iblk m c 1 t (ix3 (0 : Fin 1) f t') = V m c main_arg1 (ix3 (⟨t.val, tlt t⟩ : Fin 64) f t') := by
  obtain ⟨-, -, e0, e1, e2, -⟩ := idx_facts t
  show V m c main_arg1 (((cfg0.win 1).blk t).view.emb (ix3 (0 : Fin 1) f t')) = V m c main_arg1 (ix3 (⟨t.val, tlt t⟩ : Fin 64) f t')
  refine congrArg _ (funext fun ax => Fin.ext ?_)
  match ax with
  | ⟨0, _⟩ => show win0_1.index t (0 : Fin 3) * 1 + 1 * 0 = t.val; omega
  | ⟨1, _⟩ => show win0_1.index t (1 : Fin 3) * 512 + 1 * f.val = f.val; omega
  | ⟨2, _⟩ => show win0_1.index t (2 : Fin 3) * 600 + 1 * t'.val = t'.val; omega

theorem read2 (c : Dev nD) (t : Fin cfg0.N) (f : Fin 512) (t' : Fin 600) :
    iblk m c 2 t (ix3 (0 : Fin 1) f t') = V m c main_arg2 (ix3 (⟨t.val, tlt t⟩ : Fin 64) f t') := by
  obtain ⟨-, -, -, -, -, e0, e1, e2, -⟩ := idx_facts t
  show V m c main_arg2 (((cfg0.win 2).blk t).view.emb (ix3 (0 : Fin 1) f t')) = V m c main_arg2 (ix3 (⟨t.val, tlt t⟩ : Fin 64) f t')
  refine congrArg _ (funext fun ax => Fin.ext ?_)
  match ax with
  | ⟨0, _⟩ => show win0_2.index t (0 : Fin 3) * 1 + 1 * 0 = t.val; omega
  | ⟨1, _⟩ => show win0_2.index t (1 : Fin 3) * 512 + 1 * f.val = f.val; omega
  | ⟨2, _⟩ => show win0_2.index t (2 : Fin 3) * 600 + 1 * t'.val = t'.val; omega

/-- What point t writes back is block t of the output array `Gout`. -/
theorem flushed3_eq (c : Dev nD) (t : Fin cfg0.N) :
    (dats m 0 c).flushed 3 t
      = ((cfg0.win 3).blk t).view.read (Elt Ideal) (Gout (V m c main_v11) (V m c main_arg1) (V m c main_arg2)) := by
  show (cfg0.win 3).cut (grid0.coords t) ((dats m 0 c).after 3 t) = _
  rw [after0_3]
  unfold out0_3
  rw [View.canon_unit_zero hz3]
  simp only [View.ld_unit_zero (S := S200x600) hz2, View.ld_unit_zero (S := S1x512x600) hz3]
  funext j
  show k0_pay1 (k0_pay2 (iblk m c 0 t) (iblk m c 1 t) (iblk m c 2 t)) k0_pay3 (Scalar.ofBits .f32 0x00000000#32) j
    = Gout (V m c main_v11) (V m c main_arg1) (V m c main_arg2) (((cfg0.win 3).blk t).view.emb j)
  refine (KerPay.block_apply (iblk m c 0 t) (iblk m c 1 t) (iblk m c 2 t) j).trans ?_
  obtain ⟨-, -, -, -, -, -, -, -, e0, -⟩ := idx_facts t
  have hb : (⟨((((cfg0.win 3).blk t).view.emb j) 0).val, ((((cfg0.win 3).blk t).view.emb j) 0).isLt⟩ : Fin 64) = ⟨t.val, tlt t⟩ := by
    refine Fin.ext ?_
    show win0_3.index t (0 : Fin 3) * 1 + 1 * (j 0).val = t.val
    have hj : (j 0).val < 1 := (j 0).isLt
    omega
  unfold Gout lossOf
  rw [hb]
  simp only [read0, read1, read2]

/-- An index of the output is in point t's block iff each coordinate is in the block's range on its axis. -/
theorem mem_blk3 (t : Fin cfg0.N) (i : S64x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v12).slice (win0_3.rect t)).set ↔ _
  rw [View.set_slice_whole, Rect.mem_set_unit]
  exact Iff.rfl

/-- Every index of the output lies in the block of the point numbered by its batch coordinate. -/
theorem cover3 (i : S64x8x128.Idx) : ∃ t : Fin cfg0.N, (cfg0.win 3).flush t = true ∧ i ∈ ((cfg0.win 3).blk t).view.set := by
  have hi0 : (i 0).val < 64 := (i 0).isLt
  have hi1 : (i 1).val < 8 := (i 1).isLt
  have hi2 : (i 2).val < 128 := (i 2).isLt
  have hN : cfg0.N = 64 := N_0
  obtain ⟨t, ht⟩ : ∃ t : Fin cfg0.N, t.val = (i 0).val := ⟨⟨(i 0).val, by omega⟩, rfl⟩
  obtain ⟨-, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- After the run the output array is `Gout` of the one-hot matrix and the two feature arrays as the region finds them. -/
theorem final3 (c : Dev nD) :
    (dats m 0 c).arrAt 3 cfg0.N = Gout (V m c main_v11) (V m c main_arg1) (V m c main_arg2) :=
  (dats m 0 c).arrAt_eq_of_cover 3 (Gout (V m c main_v11) (V m c main_arg1) (V m c main_arg2)) (fun t _ => flushed3_eq m c t) cover3

end Cert.KernelIdeal.KerValue

end
-- ==== Proof.SegTerm.lean ====
/-
  The segment number of every time step, as one pure term.

  Time step `t` (counted from `0`) belongs to segment `((t - 1) ⌊/⌋ 3) mod 200`: the step numbers less one, divided
  by three rounding down (a truncating quotient, lowered by one where the signs differ and the remainder is not
  zero), then reduced modulo `200` to a non-negative remainder (a truncating remainder, raised by the modulus where
  it is not zero and its sign differs from the modulus's; a zero modulus is replaced by one first).  Both programs
  compute it by the same chain of integer operations; `segT` is that chain, nested as the operations compose.
-/
import Idealize.ShloMosaic.PureOps

namespace Cert.SyncLoss

open Idealize.ShloMosaic

/-- The segment numbers `[600]`: `((t - 1) ⌊/⌋ 3) mod 200`, as the chain of integer operations. -/
def segT (h : (⟨0, ![]⟩ : Shape).BroadcastsInDim (⟨1, ![600]⟩ : Shape) (![] : Fin 0 → Fin 1)) :
    IVec (⟨1, ![600]⟩ : Shape) 32 :=
  -- the step numbers less one
  let v2 : IVec (⟨1, ![600]⟩ : Shape) 32 :=
    subi (iotaInDim (⟨1, ![600]⟩ : Shape) 32 0)
      (broadcastInDim (⟨1, ![600]⟩ : Shape) ![] h (constantI (⟨0, ![]⟩ : Shape) 32 1#32))
  -- the floor division by three
  let d0 : IVec (⟨0, ![]⟩ : Shape) 32 := id (constantI (⟨0, ![]⟩ : Shape) 32 3#32)
  let d2 : IVec (⟨1, ![600]⟩ : Shape) 32 := Host.divsi v2 (broadcastInDim (⟨1, ![600]⟩ : Shape) ![] h d0)
  let d6 : IVec (⟨1, ![600]⟩ : Shape) 1 :=
    cmpi .ne (signi v2) (broadcastInDim (⟨1, ![600]⟩ : Shape) ![] h (signi d0))
  let d8 : IVec (⟨1, ![600]⟩ : Shape) 32 := Host.remsi v2 (broadcastInDim (⟨1, ![600]⟩ : Shape) ![] h d0)
  let d10 : IVec (⟨1, ![600]⟩ : Shape) 1 :=
    cmpi .ne d8 (broadcastInDim (⟨1, ![600]⟩ : Shape) ![] h (constantI (⟨0, ![]⟩ : Shape) 32 0#32))
  let d13 : IVec (⟨1, ![600]⟩ : Shape) 32 :=
    subi d2 (broadcastInDim (⟨1, ![600]⟩ : Shape) ![] h (constantI (⟨0, ![]⟩ : Shape) 32 1#32))
  let v3 : IVec (⟨1, ![600]⟩ : Shape) 32 := select (andi d6 d10) d13 d2
  -- the non-negative remainder modulo two hundred
  let r0 : IVec (⟨0, ![]⟩ : Shape) 32 := id (constantI (⟨0, ![]⟩ : Shape) 32 200#32)
  let r2 : IVec (⟨0, ![]⟩ : Shape) 32 :=
    select (cmpi .eq r0 (constantI (⟨0, ![]⟩ : Shape) 32 0#32)) (constantI (⟨0, ![]⟩ : Shape) 32 1#32) r0
  let r4 : IVec (⟨1, ![600]⟩ : Shape) 32 := Host.remsi v3 (broadcastInDim (⟨1, ![600]⟩ : Shape) ![] h r2)
  let r6 : IVec (⟨1, ![600]⟩ : Shape) 1 :=
    cmpi .ne r4 (broadcastInDim (⟨1, ![600]⟩ : Shape) ![] h (constantI (⟨0, ![]⟩ : Shape) 32 0#32))
  let r8 : IVec (⟨1, ![600]⟩ : Shape) 1 :=
    cmpi .slt r4 (broadcastInDim (⟨1, ![600]⟩ : Shape) ![] h (constantI (⟨0, ![]⟩ : Shape) 32 0#32))
  let r9 : IVec (⟨0, ![]⟩ : Shape) 1 := cmpi .slt r2 (constantI (⟨0, ![]⟩ : Shape) 32 0#32)
  let r11 : IVec (⟨1, ![600]⟩ : Shape) 1 := cmpi .ne r8 (broadcastInDim (⟨1, ![600]⟩ : Shape) ![] h r9)
  let r14 : IVec (⟨1, ![600]⟩ : Shape) 32 := addi r4 (broadcastInDim (⟨1, ![600]⟩ : Shape) ![] h r2)
  select (andi r11 r6) r14 r4

end Cert.SyncLoss
-- ==== Proof.KerHostTerm.lean ====
/-
  The host lines around the kernel's region, as pure terms read at an index: before the region, the one-hot matrix of
  the segment numbers (entry (a, t) is one where time step t belongs to segment a, else zero), whose product with a
  feature array sums that array over each segment; after it, the sum over the batch of the corner entries (b, 0, 0)
  of the region's output, from the float zero.
-/
import proofs.«176695_j24215025615023_2_alg».proof.Proof.Gen.KernelIdeal
import proofs.«176695_j24215025615023_2_alg».proof.Proof.Spec
import Idealize.ShloMosaic.Lib.Pipeline.Value
import Idealize.ShloMosaic.Lib.ValueLayout
import Idealize.ShloMosaic.Lib.IdealHost

open scoped BigOperators

noncomputable section

namespace Cert.KernelIdeal.KerHost

open Cert.KernelIdeal Cert.KernelIdeal.Gen Idealize.ShloMosaic Idealize.ShloMosaic.ValueIdx

/-- The one-hot matrix `[200, 600]` of segment numbers `seg`: entry `(a, t)` is the float of the bit `seg t = a`. -/
def onehotT (seg : IVec S600 32) : FVec Ideal S200x600 .f32 :=
  uitofp .f32 (cmpi .eq
    (broadcastInDim S200x600 ![0, 1] bcast_S1x600_S200x600_0_1 (broadcastInDim S1x600 ![1] bcast_S600_S1x600_1 seg))
    (broadcastInDim S200x600 ![0, 1] bcast_S200x1_S200x600_0_1
      (broadcastInDim S200x1 ![0] bcast_S200_S200x1_0 (iotaInDim S200 32 0))))

/-- The host lines after the region: the corner entries `(b, 0, 0)` of a `[64, 8, 128]` array, as a `[64]` vector,
    summed from the float zero. -/
def tailT (O : FVec Ideal S64x8x128 .f32) : FVec Ideal S_ .f32 :=
  Host.reduceAdd (F := Ideal)
    (shapeCast S64 (extractStridedSlice S64x1x1 ![0, 0, 0] O slices_S64x8x128_S64x1x1_0_0_0) shapeCasts_S64x1x1_S64)
    (constant (F := Ideal) S_ .f32 0x00000000#32) reducesTo_S64_S_d0 h_S_

/-- Read signed, the 32-bit word of a number below 200 is that number. -/
theorem toInt_ofNat_small (a : Fin 200) : (BitVec.ofNat 32 a.val).toInt = (a.val : Int) := by
  revert a; decide

/-- A 32-bit word is the word of a number below 200 exactly when it reads, signed, as that number. -/
theorem eq_ofNat_iff (x : BitVec 32) (a : Fin 200) : x = BitVec.ofNat 32 a.val ↔ x.toInt = (a.val : Int) := by
  rw [← toInt_ofNat_small a]
  exact BitVec.toInt_inj.symm

/-- The segment numbers spread over the rows read, at `(a, t)`, the number of step `t`. -/
theorem segRows_apply (seg : IVec S600 32) (a : Fin 200) (t' : Fin 600) :
    broadcastInDim S200x600 ![0, 1] bcast_S1x600_S200x600_0_1 (broadcastInDim S1x600 ![1] bcast_S600_S1x600_1 seg) (ix2 a t')
      = seg (ix1 t') := by
  refine (broadcastInDim_apply _ bcast_S1x600_S200x600_0_1 _ (ix2 a t') (ix2 (0 : Fin 1) t') fun ax => ?_).trans ?_
  · match ax with
    | ⟨0, _⟩ => rfl
    | ⟨1, _⟩ => rfl
  · refine broadcastInDim_apply _ bcast_S600_S1x600_1 seg (ix2 (0 : Fin 1) t') (ix1 t') fun ax => ?_
    match ax with
    | ⟨0, _⟩ => rfl

/-- The row numbers spread over the columns read, at `(a, t)`, the word of `a`. -/
theorem rowNums_apply (a : Fin 200) (t' : Fin 600) :
    broadcastInDim S200x600 ![0, 1] bcast_S200x1_S200x600_0_1
        (broadcastInDim S200x1 ![0] bcast_S200_S200x1_0 (iotaInDim S200 32 0)) (ix2 a t')
      = BitVec.ofNat 32 a.val := by
  refine (broadcastInDim_apply _ bcast_S200x1_S200x600_0_1 _ (ix2 a t') (ix2 a (0 : Fin 1)) fun ax => ?_).trans ?_
  · match ax with
    | ⟨0, _⟩ => rfl
    | ⟨1, _⟩ => rfl
  · refine (broadcastInDim_apply _ bcast_S200_S200x1_0 (iotaInDim S200 32 0) (ix2 a (0 : Fin 1)) (ix1 a) fun ax => ?_).trans rfl
    match ax with
    | ⟨0, _⟩ => rfl

/-- The one-hot matrix at `(a, t)`: one where step `t`'s segment number, read signed, is `a`, else zero. -/
theorem onehotT_apply (seg : IVec S600 32) (a : Fin 200) (t' : Fin 600) :
    onehotT seg (ix2 a t') = if (seg (ix1 t')).toInt = (a.val : Int) then (1 : EReal) else 0 := by
  show ((((IntOp.cmpi .eq
      (broadcastInDim S200x600 ![0, 1] bcast_S1x600_S200x600_0_1 (broadcastInDim S1x600 ![1] bcast_S600_S1x600_1 seg) (ix2 a t'))
      (broadcastInDim S200x600 ![0, 1] bcast_S200x1_S200x600_0_1
        (broadcastInDim S200x1 ![0] bcast_S200_S200x1_0 (iotaInDim S200 32 0)) (ix2 a t'))).toNat : ℝ) : EReal)) = _
  rw [segRows_apply, rowNums_apply]
  show ((((BitVec.ofBool (seg (ix1 t') == BitVec.ofNat 32 a.val)).toNat : ℝ) : EReal)) = _
  by_cases h : seg (ix1 t') = BitVec.ofNat 32 a.val
  · rw [if_pos ((eq_ofNat_iff _ a).mp h), beq_iff_eq.mpr h]
    simp
  · rw [if_neg (fun h' => h ((eq_ofNat_iff _ a).mpr h')), beq_eq_false_iff_ne.mpr h]
    simp

/-- The one-hot matrix times a feature array, summed over time, is the array summed over each segment. -/
theorem onehot_merge (seg : IVec S600 32) (X : FVec Ideal S64x512x600 .f32) (b : Fin 64) (a : Fin 200) (f : Fin 512) :
    (∑ t' : Fin 600, onehotT seg (ix2 a t') * X (ix3 b f t'))
      = Cert.SyncLoss.merged (fun t => seg (ix1 t)) (fun f t => X (ix3 b f t)) a f := by
  unfold Cert.SyncLoss.merged
  refine Finset.sum_congr rfl fun t' _ => ?_
  rw [onehotT_apply]
  split
  · rw [one_mul]
  · rw [zero_mul]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host lines after the region read at their one index: the float zero plus the sum over the batch of the
    corner entries. -/
theorem tailT_apply (O : FVec Ideal S64x8x128 .f32) :
    tailT O ix0 = Cert.SyncLoss.total (fun b => O (ix3 b (0 : Fin 8) (0 : Fin 128))) := by
  unfold tailT Cert.SyncLoss.total
  show Ideal.hostReduceAdd reducesTo_S64_S_d0 _ (Ideal.ofBits .f32 0x00000000#32) ix0 = _
  rw [Ideal.hostReduceAdd_total reducesTo_S64_S_d0 (fun b => b.elim0), sum_idx1]
  refine congrArg (Cert.SyncLoss.zero + ·) (Finset.sum_congr rfl fun b _ => ?_)
  refine (shapeCast_apply _ shapeCasts_S64x1x1_S64 (ix1 b) (ix3 b (0 : Fin 1) (0 : Fin 1)) (by
    rw [Shape.rowMajor_val_three, Shape.rowMajor_val_one]
    show (b.val * 1 + 0) * 1 + 0 = b.val
    omega)).trans ?_
  exact extractStridedSlice_apply _ O slices_S64x8x128_S64x1x1_0_0_0 (ix3 b (0 : Fin 1) (0 : Fin 1))
    (ix3 b (0 : Fin 8) (0 : Fin 128)) (by
      intro ax
      match ax with
      | ⟨0, _⟩ => exact (Nat.zero_add _).symm
      | ⟨1, _⟩ => rfl
      | ⟨2, _⟩ => rfl)

end Cert.KernelIdeal.KerHost

end
-- ==== Proof.KerHost.lean ====
/-
  The host lines around the kernel's region, read off the program: the region finds the one-hot matrix of the segment
  numbers in its first window's array, and the lines after it leave the batch sum of the corner entries of its output.
-/
import proofs.«176695_j24215025615023_2_alg».proof.Proof.Gen.KernelIdeal.Frame
import proofs.«176695_j24215025615023_2_alg».proof.Proof.Spec
import proofs.«176695_j24215025615023_2_alg».proof.Proof.SegTerm
import proofs.«176695_j24215025615023_2_alg».proof.Proof.KerHostTerm
import Idealize.ShloMosaic.Lib.StableHlo.Run

noncomputable section

namespace Cert.KernelIdeal.KerHost

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

set_option maxHeartbeats 400000 in
/-- The region finds the one-hot matrix of the segment numbers. -/
theorem V_v11 (c : Dev nD) : (V m c main_v11 : S200x600.Idx → EReal) = onehotT (Cert.SyncLoss.segT bcast_S_S600) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  unfold onehotT Cert.SyncLoss.segT
  rfl

/-- The lines after the region leave, in the result's buffer, the tail's term of the region's output array. -/
theorem tail_v15 (c : Dev nD) :
    (Pipeline.afterTail₀ cfgs (dats m) 0 (V0 m) [hostOps1] c main_v15 : S_.Idx → EReal)
      = tailT ((dats m 0 c).arrAt 3 cfg0.N) := by
  unfold Pipeline.afterTail₀
  show StableHlo.after hostOps1 _ (Proc.devRef .tc main_v15) = _
  after_results
  have e := Pipeline.withArrays_arr spec0 launch0.win.arr_inj c (V0 m c) (fun w => (dats m 0 c).arrAt w cfg0.N) 3
  exact congrArg tailT e

end Cert.KernelIdeal.KerHost

end
-- ==== Proof.SpecLaw.lean ====
/-
  Two laws of the loss on the extended reals.

  The count both programs divide by is the real number 200, so dividing by it is multiplying by the real 1/200, on every
  extended real. The kernel's form of one batch element's loss (the diagonal read as a masked row sum, subtracted from
  zero, then divided) therefore equals the reference's form (the diagonal summed, divided, then negated), with no
  finiteness condition: negation commutes with multiplication on the extended reals.
-/
import proofs.«176695_j24215025615023_2_alg».proof.Proof.Spec
import Idealize.ShloMosaic.PureOps.Ideal.Laws

noncomputable section

namespace Cert.SyncLoss

open Idealize.ShloMosaic

/-- The count is the real number 200. -/
theorem count_eq : count = ((200 : ℝ) : EReal) := by
  unfold count
  simp [Ideal.ofBits, Ideal.ieee, -EReal.coe_mul]; norm_num

/-- Dividing by the count is multiplying by 1/200, on every extended real. -/
theorem div_count (s : EReal) : Ideal.div s count = s * ((1 / 200 : ℝ) : EReal) := by
  rw [count_eq]
  exact Ideal.div_coe (by norm_num) s

/-- The masked sum of row `m` is the diagonal entry. -/
theorem maskedRow (C : Fin 200 → Fin 200 → EReal) (m : Fin 200) :
    (∑ n : Fin 200, if m = n then logp C m n else 0) = logp C m m := by
  rw [Finset.sum_ite_eq]
  exact if_pos (Finset.mem_univ m)

/-- The kernel's form of one batch element's loss is the reference's. -/
theorem lossKer_eq_lossRef (C : Fin 200 → Fin 200 → EReal) : lossKer C = lossRef C := by
  unfold lossKer lossRef
  rw [Finset.sum_congr rfl (fun m _ => maskedRow C m), zero_sub, div_count, div_count, EReal.neg_mul]

end Cert.SyncLoss

end
-- ==== Proof.KerRun.lean ====
import proofs.«176695_j24215025615023_2_alg».proof.Proof.KerValue
import proofs.«176695_j24215025615023_2_alg».proof.Proof.KerHost
import proofs.«176695_j24215025615023_2_alg».proof.Proof.SpecLaw

noncomputable section

/-
  The kernel program's result as the specification's function of the argument arrays.

  The host lines before the region build the one-hot matrix of the segment numbers, so a merge inside the kernel is
  the segment sum; the region leaves the loss of batch element b at (b, ·, ·) of the output array; the host lines after
  it add the entries (b, 0, 0) from the float zero. The kernel's arrangement of one batch element's loss equals the
  reference's (`lossKer_eq_lossRef`), so the result is `Cert.SyncLoss.G` of the segment numbers and the two feature arrays.
-/
namespace Cert.KernelIdeal.KerRun

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- With the one-hot matrix of the segment numbers, the kernel's loss of batch element b is the reference's loss of the
    cosines of the two segment-summed feature maps. -/
theorem lossOf_eq (seg : IVec S600 32) (X Y : FVec Ideal S64x512x600 .f32) (b : Fin 64) :
    KerValue.lossOf (KerHost.onehotT seg) X Y b
      = Cert.SyncLoss.lossRef (Cert.SyncLoss.cosv
          (Cert.SyncLoss.merged (fun t => seg (ix1 t)) (fun f t => X (ix3 b f t)))
          (Cert.SyncLoss.merged (fun t => seg (ix1 t)) (fun f t => Y (ix3 b f t)))) := by
  unfold KerValue.lossOf
  rw [Cert.SyncLoss.lossKer_eq_lossRef]
  refine congrArg Cert.SyncLoss.lossRef (congrArg₂ Cert.SyncLoss.cosv ?_ ?_)
  · funext a f; exact KerHost.onehot_merge seg X b a f
  · funext a f; exact KerHost.onehot_merge seg Y b a f

/-- The value of the kernel program's result, on every core. -/
def result (c : Dev nD) : FVec Ideal S_ .f32 := fun _ =>
  Cert.SyncLoss.G (fun t => Cert.SyncLoss.segT bcast_S_S600 (ix1 t))
    (fun b f t => (m ((c.tc : Thread nD τ).loc main_arg1) : FVec Ideal S64x512x600 .f32) (ix3 b f t))
    (fun b f t => (m ((c.tc : Thread nD τ).loc main_arg2) : FVec Ideal S64x512x600 .f32) (ix3 b f t))

/-- What the host lines after the region leave in the result buffer. -/
theorem tail_result (c : Dev nD) :
    Pipeline.afterTail₀ cfgs (dats m) 0 (V0 m) [hostOps1] c main_v15 = result m c := by
  rw [KerHost.tail_v15, KerValue.final3, KerHost.V_v11, V_main_arg1, V_main_arg2]
  funext i
  rw [eq_ix0 i, KerHost.tailT_apply]
  unfold result Cert.SyncLoss.G
  refine congrArg Cert.SyncLoss.total (funext fun b => ?_)
  exact lossOf_eq _ _ _ b

/-- The run of the kernel program: it terminates with the result buffer at `result` and the arguments unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KerRun

end
-- ==== Proof.RefRunA.lean ====
/-
  The reference's @main as the list of its 116 host operations, in order, the functions it calls written out at their
  call sites over the calls' own buffers: the segment numbers (the step numbers less one, floor-divided by three,
  reduced modulo two hundred), the two segment sums, the clamped cosines, the row-wise log-softmax, the diagonal, and
  the loss.  The list is also given in six consecutive stretches, one per stage, whose concatenation it is; the run
  of @main ends with every buffer at the fold of the list over the launch contents.
-/
import proofs.«176695_j24215025615023_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- The segment numbers: the 44 integer operations ending at `main_v4`. -/
abbrev opsSeg : List (HloOp τ sig (Elt F)) :=
  [ nullary main_v0 (iotaInDim S600 32 0),
    nullary main_c (constantI S_ 32 1#32),
    unary main_c main_v1 (broadcastInDim S600 ![] bcast_S_S600 : (⟨S_, .i32⟩ : BufTy).Contents (Elt F) → (⟨S600, .i32⟩ : BufTy).Contents (Elt F)),
    binary main_v0 main_v1 main_v2 (subi : (⟨S600, .i32⟩ : BufTy).Contents (Elt F) → (⟨S600, .i32⟩ : BufTy).Contents (Elt F) → (⟨S600, .i32⟩ : BufTy).Contents (Elt F)),
    nullary main_c_0 (constantI S_ 32 3#32),
    TRef.unary (.of main_c_0 : TRef sig ⟨S_, .i32⟩) main_call0.v0 id,
    TRef.unary main_call0.v0 main_call0.v1 (broadcastInDim S600 ![] bcast_S_S600),
    TRef.binary (.of main_v2 : TRef sig ⟨S600, .i32⟩) main_call0.v1 main_call0.v2 Host.divsi,
    TRef.unary (.of main_v2 : TRef sig ⟨S600, .i32⟩) main_call0.v3 signi,
    TRef.unary main_call0.v0 main_call0.v4 signi,
    TRef.unary main_call0.v4 main_call0.v5 (broadcastInDim S600 ![] bcast_S_S600),
    TRef.binary main_call0.v3 main_call0.v5 main_call0.v6 (cmpi .ne),
    TRef.unary main_call0.v0 main_call0.v7 (broadcastInDim S600 ![] bcast_S_S600),
    TRef.binary (.of main_v2 : TRef sig ⟨S600, .i32⟩) main_call0.v7 main_call0.v8 Host.remsi,
    TRef.nullary main_call0.c (constantI S_ 32 0#32),
    TRef.unary main_call0.c main_call0.v9 (broadcastInDim S600 ![] bcast_S_S600),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S600 ![] bcast_S_S600),
    TRef.binary main_call0.v2 main_call0.v12 main_call0.v13 subi,
    TRef.ternary main_call0.v11 main_call0.v13 main_call0.v2 main_call0.call0.v0 select,
    nullary main_c_1 (constantI S_ 32 200#32),
    TRef.unary (.of main_c_1 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S600 ![] bcast_S_S600),
    TRef.binary (.of main_v3 : TRef sig ⟨S600, .i32⟩) main_call1.v3 main_call1.v4 Host.remsi,
    TRef.nullary main_call1.c_1 (constantI S_ 32 0#32),
    TRef.unary main_call1.c_1 main_call1.v5 (broadcastInDim S600 ![] bcast_S_S600),
    TRef.binary main_call1.v4 main_call1.v5 main_call1.v6 (cmpi .ne),
    TRef.nullary main_call1.c_2 (constantI S_ 32 0#32),
    TRef.unary main_call1.c_2 main_call1.v7 (broadcastInDim S600 ![] bcast_S_S600),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S600 ![] bcast_S_S600),
    TRef.binary main_call1.v8 main_call1.v10 main_call1.v11 (cmpi .ne),
    TRef.binary main_call1.v11 main_call1.v6 main_call1.v12 andi,
    TRef.unary main_call1.call0.v0 main_call1.v13 (broadcastInDim S600 ![] bcast_S_S600),
    TRef.binary main_call1.v4 main_call1.v13 main_call1.v14 addi,
    TRef.ternary main_call1.v12 main_call1.v14 main_call1.v4 main_call1.v15 select ]

/-- The two segment sums: for each feature array the time axis moved to the front, zeros, the segment numbers as a column, the scatter-add, the batch axis moved back — ending at `main_v9` and `main_v14`. -/
abbrev opsMerge : List (HloOp τ sig (Elt F)) :=
  [ unary main_arg1 main_v5 ((transpose S600x64x512 [2, 0, 1] · transposes_S64x512x600_S600x64x512_2_0_1) : (⟨S64x512x600, .f32⟩ : BufTy).Contents (Elt F) → (⟨S600x64x512, .f32⟩ : BufTy).Contents (Elt F)),
    nullary main_cst (constant S_ .f32 0x00000000#32),
    unary main_cst main_v6 (broadcastInDim S200x64x512 ![] bcast_S_S200x64x512 : (⟨S_, .f32⟩ : BufTy).Contents (Elt F) → (⟨S200x64x512, .f32⟩ : BufTy).Contents (Elt F)),
    unary main_v4 main_v7 (broadcastInDim S600x1 ![0] bcast_S600_S600x1_0 : (⟨S600, .i32⟩ : BufTy).Contents (Elt F) → (⟨S600x1, .i32⟩ : BufTy).Contents (Elt F)),
    ternary main_v6 main_v7 main_v5 main_v8 ((fun x i u => Host.scatterAdd scatter_S200x64x512_S600x1_S600x64x512_12_0_0_1 x i u) : (⟨S200x64x512, .f32⟩ : BufTy).Contents (Elt F) → (⟨S600x1, .i32⟩ : BufTy).Contents (Elt F) → (⟨S600x64x512, .f32⟩ : BufTy).Contents (Elt F) → (⟨S200x64x512, .f32⟩ : BufTy).Contents (Elt F)),
    unary main_v8 main_v9 ((transpose S64x200x512 [1, 0, 2] · transposes_S200x64x512_S64x200x512_1_0_2) : (⟨S200x64x512, .f32⟩ : BufTy).Contents (Elt F) → (⟨S64x200x512, .f32⟩ : BufTy).Contents (Elt F)),
    unary main_arg2 main_v10 ((transpose S600x64x512 [2, 0, 1] · transposes_S64x512x600_S600x64x512_2_0_1) : (⟨S64x512x600, .f32⟩ : BufTy).Contents (Elt F) → (⟨S600x64x512, .f32⟩ : BufTy).Contents (Elt F)),
    nullary main_cst_2 (constant S_ .f32 0x00000000#32),
    unary main_cst_2 main_v11 (broadcastInDim S200x64x512 ![] bcast_S_S200x64x512 : (⟨S_, .f32⟩ : BufTy).Contents (Elt F) → (⟨S200x64x512, .f32⟩ : BufTy).Contents (Elt F)),
    unary main_v4 main_v12 (broadcastInDim S600x1 ![0] bcast_S600_S600x1_0 : (⟨S600, .i32⟩ : BufTy).Contents (Elt F) → (⟨S600x1, .i32⟩ : BufTy).Contents (Elt F)),
    ternary main_v11 main_v12 main_v10 main_v13 ((fun x i u => Host.scatterAdd scatter_S200x64x512_S600x1_S600x64x512_12_0_0_1 x i u) : (⟨S200x64x512, .f32⟩ : BufTy).Contents (Elt F) → (⟨S600x1, .i32⟩ : BufTy).Contents (Elt F) → (⟨S600x64x512, .f32⟩ : BufTy).Contents (Elt F) → (⟨S200x64x512, .f32⟩ : BufTy).Contents (Elt F)),
    unary main_v13 main_v14 ((transpose S64x200x512 [1, 0, 2] · transposes_S200x64x512_S64x200x512_1_0_2) : (⟨S200x64x512, .f32⟩ : BufTy).Contents (Elt F) → (⟨S64x200x512, .f32⟩ : BufTy).Contents (Elt F)) ]

/-- The clamped cosines: the batched product of the two segment sums, their row norms, the product of the norms clamped from below, the quotient — ending at `main_v25`. -/
abbrev opsCos : List (HloOp τ sig (Elt F)) :=
  [ binary main_v9 main_v14 main_v15 ((fun l r => Host.dotGeneral dot_S64x200x512_S64x200x512_S64x200x200_2_2_1_1_0_0 none l r) : (⟨S64x200x512, .f32⟩ : BufTy).Contents (Elt F) → (⟨S64x200x512, .f32⟩ : BufTy).Contents (Elt F) → (⟨S64x200x200, .f32⟩ : BufTy).Contents (Elt F)),
    TRef.binary (.of main_v9 : TRef sig ⟨S64x200x512, .f32⟩) (.of main_v9 : TRef sig ⟨S64x200x512, .f32⟩) main_call2.v0 mulf,
    TRef.nullary main_call2.cst (constant S_ .f32 0x00000000#32),
    TRef.binary main_call2.v0 main_call2.cst main_call2.v1 (fun x v => Host.reduceAdd x v reducesTo_S64x200x512_S64x200_d2 h_S_),
    TRef.unary main_call2.v1 main_call2.v2 Host.sqrt,
    TRef.binary (.of main_v14 : TRef sig ⟨S64x200x512, .f32⟩) (.of main_v14 : TRef sig ⟨S64x200x512, .f32⟩) main_call3.v0 mulf,
    TRef.nullary main_call3.cst (constant S_ .f32 0x00000000#32),
    TRef.binary main_call3.v0 main_call3.cst main_call3.v1 (fun x v => Host.reduceAdd x v reducesTo_S64x200x512_S64x200_d2 h_S_),
    TRef.unary main_call3.v1 main_call3.v2 Host.sqrt,
    unary main_v16 main_v18 (broadcastInDim S64x200x1 ![0, 1] bcast_S64x200_S64x200x1_0_1 : (⟨S64x200, .f32⟩ : BufTy).Contents (Elt F) → (⟨S64x200x1, .f32⟩ : BufTy).Contents (Elt F)),
    unary main_v17 main_v19 (broadcastInDim S64x1x200 ![0, 2] bcast_S64x200_S64x1x200_0_2 : (⟨S64x200, .f32⟩ : BufTy).Contents (Elt F) → (⟨S64x1x200, .f32⟩ : BufTy).Contents (Elt F)),
    unary main_v18 main_v20 (broadcastInDim S64x200x200 ![0, 1, 2] bcast_S64x200x1_S64x200x200_0_1_2 : (⟨S64x200x1, .f32⟩ : BufTy).Contents (Elt F) → (⟨S64x200x200, .f32⟩ : BufTy).Contents (Elt F)),
    unary main_v19 main_v21 (broadcastInDim S64x200x200 ![0, 1, 2] bcast_S64x1x200_S64x200x200_0_1_2 : (⟨S64x1x200, .f32⟩ : BufTy).Contents (Elt F) → (⟨S64x200x200, .f32⟩ : BufTy).Contents (Elt F)),
    binary main_v20 main_v21 main_v22 (mulf : (⟨S64x200x200, .f32⟩ : BufTy).Contents (Elt F) → (⟨S64x200x200, .f32⟩ : BufTy).Contents (Elt F) → (⟨S64x200x200, .f32⟩ : BufTy).Contents (Elt F)),
    nullary main_cst_3 (constant S_ .f32 0x322BCC77#32),
    unary main_cst_3 main_v23 (broadcastInDim S64x200x200 ![] bcast_S_S64x200x200 : (⟨S_, .f32⟩ : BufTy).Contents (Elt F) → (⟨S64x200x200, .f32⟩ : BufTy).Contents (Elt F)),
    binary main_v22 main_v23 main_v24 (maximumf : (⟨S64x200x200, .f32⟩ : BufTy).Contents (Elt F) → (⟨S64x200x200, .f32⟩ : BufTy).Contents (Elt F) → (⟨S64x200x200, .f32⟩ : BufTy).Contents (Elt F)),
    binary main_v15 main_v24 main_v25 (Host.divf : (⟨S64x200x200, .f32⟩ : BufTy).Contents (Elt F) → (⟨S64x200x200, .f32⟩ : BufTy).Contents (Elt F) → (⟨S64x200x200, .f32⟩ : BufTy).Contents (Elt F)) ]

/-- The row-wise log-softmax, ending at `main_v26`. -/
abbrev opsLsm : List (HloOp τ sig (Elt F)) :=
  [ TRef.nullary main_call4.cst (constant S_ .f32 0xFF800000#32),
    TRef.binary (.of main_v25 : TRef sig ⟨S64x200x200, .f32⟩) main_call4.cst main_call4.v0 (fun x v => Host.reduce FloatOps.maximumf x v reducesTo_S64x200x200_S64x200_d2 h_S_),
    TRef.nullary main_call4.cst_0 (constant S_ .f32 0xFF800000#32),
    TRef.unary main_call4.cst_0 main_call4.v1 (broadcastInDim S64x200 ![] bcast_S_S64x200),
    TRef.binary main_call4.v1 main_call4.v0 main_call4.v2 maximumf,
    TRef.unary main_call4.v2 main_call4.v3 (broadcastInDim S64x200x1 ![0, 1] bcast_S64x200_S64x200x1_0_1),
    TRef.unary main_call4.v3 main_call4.v4 (broadcastInDim S64x200x200 ![0, 1, 2] bcast_S64x200x1_S64x200x200_0_1_2),
    TRef.binary (.of main_v25 : TRef sig ⟨S64x200x200, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S64x200x200_S64x200_d2 h_S_),
    TRef.unary main_call4.v7 main_call4.v8 (broadcastInDim S64x200x1 ![0, 1] bcast_S64x200_S64x200x1_0_1),
    TRef.unary main_call4.v8 main_call4.v9 Host.log,
    TRef.unary main_call4.v9 main_call4.v10 (broadcastInDim S64x200x200 ![0, 1, 2] bcast_S64x200x1_S64x200x200_0_1_2),
    TRef.binary main_call4.v5 main_call4.v10 main_call4.v11 subf ]

/-- The diagonal: the index pairs `(k, k)` and the gather, ending at `main_v41`. -/
abbrev opsDiag : List (HloOp τ sig (Elt F)) :=
  [ nullary main_v27 (iotaInDim S200 32 0),
    nullary main_c_4 (constantI S_ 32 0#32),
    unary main_c_4 main_v28 (broadcastInDim S200 ![] bcast_S_S200 : (⟨S_, .i32⟩ : BufTy).Contents (Elt F) → (⟨S200, .i32⟩ : BufTy).Contents (Elt F)),
    binary main_v27 main_v28 main_v29 (cmpi .slt : (⟨S200, .i32⟩ : BufTy).Contents (Elt F) → (⟨S200, .i32⟩ : BufTy).Contents (Elt F) → (⟨S200, .i1⟩ : BufTy).Contents (Elt F)),
    nullary main_c_5 (constantI S_ 32 200#32),
    unary main_c_5 main_v30 (broadcastInDim S200 ![] bcast_S_S200 : (⟨S_, .i32⟩ : BufTy).Contents (Elt F) → (⟨S200, .i32⟩ : BufTy).Contents (Elt F)),
    binary main_v27 main_v30 main_v31 (addi : (⟨S200, .i32⟩ : BufTy).Contents (Elt F) → (⟨S200, .i32⟩ : BufTy).Contents (Elt F) → (⟨S200, .i32⟩ : BufTy).Contents (Elt F)),
    ternary main_v29 main_v31 main_v27 main_v32 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    nullary main_c_6 (constantI S_ 32 0#32),
    unary main_c_6 main_v33 (broadcastInDim S200 ![] bcast_S_S200 : (⟨S_, .i32⟩ : BufTy).Contents (Elt F) → (⟨S200, .i32⟩ : BufTy).Contents (Elt F)),
    binary main_v27 main_v33 main_v34 (cmpi .slt : (⟨S200, .i32⟩ : BufTy).Contents (Elt F) → (⟨S200, .i32⟩ : BufTy).Contents (Elt F) → (⟨S200, .i1⟩ : BufTy).Contents (Elt F)),
    nullary main_c_7 (constantI S_ 32 200#32),
    unary main_c_7 main_v35 (broadcastInDim S200 ![] bcast_S_S200 : (⟨S_, .i32⟩ : BufTy).Contents (Elt F) → (⟨S200, .i32⟩ : BufTy).Contents (Elt F)),
    binary main_v27 main_v35 main_v36 (addi : (⟨S200, .i32⟩ : BufTy).Contents (Elt F) → (⟨S200, .i32⟩ : BufTy).Contents (Elt F) → (⟨S200, .i32⟩ : BufTy).Contents (Elt F)),
    ternary main_v34 main_v36 main_v27 main_v37 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    unary main_v32 main_v38 (broadcastInDim S200x1 ![0] bcast_S200_S200x1_0 : (⟨S200, .i32⟩ : BufTy).Contents (Elt F) → (⟨S200x1, .i32⟩ : BufTy).Contents (Elt F)),
    unary main_v37 main_v39 (broadcastInDim S200x1 ![0] bcast_S200_S200x1_0 : (⟨S200, .i32⟩ : BufTy).Contents (Elt F) → (⟨S200x1, .i32⟩ : BufTy).Contents (Elt F)),
    binary main_v38 main_v39 main_v40 ((fun a b => concatenate S200x2 1 [⟨S200x1, a⟩, ⟨S200x1, b⟩] concatenates_S200x1_S200x1_S200x2_d1) : (⟨S200x1, .i32⟩ : BufTy).Contents (Elt F) → (⟨S200x1, .i32⟩ : BufTy).Contents (Elt F) → (⟨S200x2, .i32⟩ : BufTy).Contents (Elt F)),
    binary main_v26 main_v40 main_v41 ((fun x i => Host.gather gather_S64x200x200_S200x2_S64x200_0_12_n_n_12_1_6411 x i) : (⟨S64x200x200, .f32⟩ : BufTy).Contents (Elt F) → (⟨S200x2, .i32⟩ : BufTy).Contents (Elt F) → (⟨S64x200, .f32⟩ : BufTy).Contents (Elt F)) ]

/-- The loss: the diagonal's row sums divided by the count, negated, summed over the batch, ending at `main_v46`. -/
abbrev opsLoss : List (HloOp τ sig (Elt F)) :=
  [ nullary main_cst_8 (constant S_ .f32 0x00000000#32),
    binary main_v41 main_cst_8 main_v42 ((fun x v => Host.reduceAdd x v reducesTo_S64x200_S64_d1 h_S_) : (⟨S64x200, .f32⟩ : BufTy).Contents (Elt F) → (⟨S_, .f32⟩ : BufTy).Contents (Elt F) → (⟨S64, .f32⟩ : BufTy).Contents (Elt F)),
    nullary main_cst_9 (constant S_ .f32 0x43480000#32),
    unary main_cst_9 main_v43 (broadcastInDim S64 ![] bcast_S_S64 : (⟨S_, .f32⟩ : BufTy).Contents (Elt F) → (⟨S64, .f32⟩ : BufTy).Contents (Elt F)),
    binary main_v42 main_v43 main_v44 (Host.divf : (⟨S64, .f32⟩ : BufTy).Contents (Elt F) → (⟨S64, .f32⟩ : BufTy).Contents (Elt F) → (⟨S64, .f32⟩ : BufTy).Contents (Elt F)),
    unary main_v44 main_v45 (Host.negf : (⟨S64, .f32⟩ : BufTy).Contents (Elt F) → (⟨S64, .f32⟩ : BufTy).Contents (Elt F)),
    nullary main_cst_10 (constant S_ .f32 0x00000000#32),
    binary main_v45 main_cst_10 main_v46 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)) ]

/-- @main's 116 operations, in order. -/
abbrev ops : List (HloOp τ sig (Elt F)) :=
  [ nullary main_v0 (iotaInDim S600 32 0),
    nullary main_c (constantI S_ 32 1#32),
    unary main_c main_v1 (broadcastInDim S600 ![] bcast_S_S600 : (⟨S_, .i32⟩ : BufTy).Contents (Elt F) → (⟨S600, .i32⟩ : BufTy).Contents (Elt F)),
    binary main_v0 main_v1 main_v2 (subi : (⟨S600, .i32⟩ : BufTy).Contents (Elt F) → (⟨S600, .i32⟩ : BufTy).Contents (Elt F) → (⟨S600, .i32⟩ : BufTy).Contents (Elt F)),
    nullary main_c_0 (constantI S_ 32 3#32),
    TRef.unary (.of main_c_0 : TRef sig ⟨S_, .i32⟩) main_call0.v0 id,
    TRef.unary main_call0.v0 main_call0.v1 (broadcastInDim S600 ![] bcast_S_S600),
    TRef.binary (.of main_v2 : TRef sig ⟨S600, .i32⟩) main_call0.v1 main_call0.v2 Host.divsi,
    TRef.unary (.of main_v2 : TRef sig ⟨S600, .i32⟩) main_call0.v3 signi,
    TRef.unary main_call0.v0 main_call0.v4 signi,
    TRef.unary main_call0.v4 main_call0.v5 (broadcastInDim S600 ![] bcast_S_S600),
    TRef.binary main_call0.v3 main_call0.v5 main_call0.v6 (cmpi .ne),
    TRef.unary main_call0.v0 main_call0.v7 (broadcastInDim S600 ![] bcast_S_S600),
    TRef.binary (.of main_v2 : TRef sig ⟨S600, .i32⟩) main_call0.v7 main_call0.v8 Host.remsi,
    TRef.nullary main_call0.c (constantI S_ 32 0#32),
    TRef.unary main_call0.c main_call0.v9 (broadcastInDim S600 ![] bcast_S_S600),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S600 ![] bcast_S_S600),
    TRef.binary main_call0.v2 main_call0.v12 main_call0.v13 subi,
    TRef.ternary main_call0.v11 main_call0.v13 main_call0.v2 main_call0.call0.v0 select,
    nullary main_c_1 (constantI S_ 32 200#32),
    TRef.unary (.of main_c_1 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S600 ![] bcast_S_S600),
    TRef.binary (.of main_v3 : TRef sig ⟨S600, .i32⟩) main_call1.v3 main_call1.v4 Host.remsi,
    TRef.nullary main_call1.c_1 (constantI S_ 32 0#32),
    TRef.unary main_call1.c_1 main_call1.v5 (broadcastInDim S600 ![] bcast_S_S600),
    TRef.binary main_call1.v4 main_call1.v5 main_call1.v6 (cmpi .ne),
    TRef.nullary main_call1.c_2 (constantI S_ 32 0#32),
    TRef.unary main_call1.c_2 main_call1.v7 (broadcastInDim S600 ![] bcast_S_S600),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S600 ![] bcast_S_S600),
    TRef.binary main_call1.v8 main_call1.v10 main_call1.v11 (cmpi .ne),
    TRef.binary main_call1.v11 main_call1.v6 main_call1.v12 andi,
    TRef.unary main_call1.call0.v0 main_call1.v13 (broadcastInDim S600 ![] bcast_S_S600),
    TRef.binary main_call1.v4 main_call1.v13 main_call1.v14 addi,
    TRef.ternary main_call1.v12 main_call1.v14 main_call1.v4 main_call1.v15 select,
    unary main_arg1 main_v5 ((transpose S600x64x512 [2, 0, 1] · transposes_S64x512x600_S600x64x512_2_0_1) : (⟨S64x512x600, .f32⟩ : BufTy).Contents (Elt F) → (⟨S600x64x512, .f32⟩ : BufTy).Contents (Elt F)),
    nullary main_cst (constant S_ .f32 0x00000000#32),
    unary main_cst main_v6 (broadcastInDim S200x64x512 ![] bcast_S_S200x64x512 : (⟨S_, .f32⟩ : BufTy).Contents (Elt F) → (⟨S200x64x512, .f32⟩ : BufTy).Contents (Elt F)),
    unary main_v4 main_v7 (broadcastInDim S600x1 ![0] bcast_S600_S600x1_0 : (⟨S600, .i32⟩ : BufTy).Contents (Elt F) → (⟨S600x1, .i32⟩ : BufTy).Contents (Elt F)),
    ternary main_v6 main_v7 main_v5 main_v8 ((fun x i u => Host.scatterAdd scatter_S200x64x512_S600x1_S600x64x512_12_0_0_1 x i u) : (⟨S200x64x512, .f32⟩ : BufTy).Contents (Elt F) → (⟨S600x1, .i32⟩ : BufTy).Contents (Elt F) → (⟨S600x64x512, .f32⟩ : BufTy).Contents (Elt F) → (⟨S200x64x512, .f32⟩ : BufTy).Contents (Elt F)),
    unary main_v8 main_v9 ((transpose S64x200x512 [1, 0, 2] · transposes_S200x64x512_S64x200x512_1_0_2) : (⟨S200x64x512, .f32⟩ : BufTy).Contents (Elt F) → (⟨S64x200x512, .f32⟩ : BufTy).Contents (Elt F)),
    unary main_arg2 main_v10 ((transpose S600x64x512 [2, 0, 1] · transposes_S64x512x600_S600x64x512_2_0_1) : (⟨S64x512x600, .f32⟩ : BufTy).Contents (Elt F) → (⟨S600x64x512, .f32⟩ : BufTy).Contents (Elt F)),
    nullary main_cst_2 (constant S_ .f32 0x00000000#32),
    unary main_cst_2 main_v11 (broadcastInDim S200x64x512 ![] bcast_S_S200x64x512 : (⟨S_, .f32⟩ : BufTy).Contents (Elt F) → (⟨S200x64x512, .f32⟩ : BufTy).Contents (Elt F)),
    unary main_v4 main_v12 (broadcastInDim S600x1 ![0] bcast_S600_S600x1_0 : (⟨S600, .i32⟩ : BufTy).Contents (Elt F) → (⟨S600x1, .i32⟩ : BufTy).Contents (Elt F)),
    ternary main_v11 main_v12 main_v10 main_v13 ((fun x i u => Host.scatterAdd scatter_S200x64x512_S600x1_S600x64x512_12_0_0_1 x i u) : (⟨S200x64x512, .f32⟩ : BufTy).Contents (Elt F) → (⟨S600x1, .i32⟩ : BufTy).Contents (Elt F) → (⟨S600x64x512, .f32⟩ : BufTy).Contents (Elt F) → (⟨S200x64x512, .f32⟩ : BufTy).Contents (Elt F)),
    unary main_v13 main_v14 ((transpose S64x200x512 [1, 0, 2] · transposes_S200x64x512_S64x200x512_1_0_2) : (⟨S200x64x512, .f32⟩ : BufTy).Contents (Elt F) → (⟨S64x200x512, .f32⟩ : BufTy).Contents (Elt F)),
    binary main_v9 main_v14 main_v15 ((fun l r => Host.dotGeneral dot_S64x200x512_S64x200x512_S64x200x200_2_2_1_1_0_0 none l r) : (⟨S64x200x512, .f32⟩ : BufTy).Contents (Elt F) → (⟨S64x200x512, .f32⟩ : BufTy).Contents (Elt F) → (⟨S64x200x200, .f32⟩ : BufTy).Contents (Elt F)),
    TRef.binary (.of main_v9 : TRef sig ⟨S64x200x512, .f32⟩) (.of main_v9 : TRef sig ⟨S64x200x512, .f32⟩) main_call2.v0 mulf,
    TRef.nullary main_call2.cst (constant S_ .f32 0x00000000#32),
    TRef.binary main_call2.v0 main_call2.cst main_call2.v1 (fun x v => Host.reduceAdd x v reducesTo_S64x200x512_S64x200_d2 h_S_),
    TRef.unary main_call2.v1 main_call2.v2 Host.sqrt,
    TRef.binary (.of main_v14 : TRef sig ⟨S64x200x512, .f32⟩) (.of main_v14 : TRef sig ⟨S64x200x512, .f32⟩) main_call3.v0 mulf,
    TRef.nullary main_call3.cst (constant S_ .f32 0x00000000#32),
    TRef.binary main_call3.v0 main_call3.cst main_call3.v1 (fun x v => Host.reduceAdd x v reducesTo_S64x200x512_S64x200_d2 h_S_),
    TRef.unary main_call3.v1 main_call3.v2 Host.sqrt,
    unary main_v16 main_v18 (broadcastInDim S64x200x1 ![0, 1] bcast_S64x200_S64x200x1_0_1 : (⟨S64x200, .f32⟩ : BufTy).Contents (Elt F) → (⟨S64x200x1, .f32⟩ : BufTy).Contents (Elt F)),
    unary main_v17 main_v19 (broadcastInDim S64x1x200 ![0, 2] bcast_S64x200_S64x1x200_0_2 : (⟨S64x200, .f32⟩ : BufTy).Contents (Elt F) → (⟨S64x1x200, .f32⟩ : BufTy).Contents (Elt F)),
    unary main_v18 main_v20 (broadcastInDim S64x200x200 ![0, 1, 2] bcast_S64x200x1_S64x200x200_0_1_2 : (⟨S64x200x1, .f32⟩ : BufTy).Contents (Elt F) → (⟨S64x200x200, .f32⟩ : BufTy).Contents (Elt F)),
    unary main_v19 main_v21 (broadcastInDim S64x200x200 ![0, 1, 2] bcast_S64x1x200_S64x200x200_0_1_2 : (⟨S64x1x200, .f32⟩ : BufTy).Contents (Elt F) → (⟨S64x200x200, .f32⟩ : BufTy).Contents (Elt F)),
    binary main_v20 main_v21 main_v22 (mulf : (⟨S64x200x200, .f32⟩ : BufTy).Contents (Elt F) → (⟨S64x200x200, .f32⟩ : BufTy).Contents (Elt F) → (⟨S64x200x200, .f32⟩ : BufTy).Contents (Elt F)),
    nullary main_cst_3 (constant S_ .f32 0x322BCC77#32),
    unary main_cst_3 main_v23 (broadcastInDim S64x200x200 ![] bcast_S_S64x200x200 : (⟨S_, .f32⟩ : BufTy).Contents (Elt F) → (⟨S64x200x200, .f32⟩ : BufTy).Contents (Elt F)),
    binary main_v22 main_v23 main_v24 (maximumf : (⟨S64x200x200, .f32⟩ : BufTy).Contents (Elt F) → (⟨S64x200x200, .f32⟩ : BufTy).Contents (Elt F) → (⟨S64x200x200, .f32⟩ : BufTy).Contents (Elt F)),
    binary main_v15 main_v24 main_v25 (Host.divf : (⟨S64x200x200, .f32⟩ : BufTy).Contents (Elt F) → (⟨S64x200x200, .f32⟩ : BufTy).Contents (Elt F) → (⟨S64x200x200, .f32⟩ : BufTy).Contents (Elt F)),
    TRef.nullary main_call4.cst (constant S_ .f32 0xFF800000#32),
    TRef.binary (.of main_v25 : TRef sig ⟨S64x200x200, .f32⟩) main_call4.cst main_call4.v0 (fun x v => Host.reduce FloatOps.maximumf x v reducesTo_S64x200x200_S64x200_d2 h_S_),
    TRef.nullary main_call4.cst_0 (constant S_ .f32 0xFF800000#32),
    TRef.unary main_call4.cst_0 main_call4.v1 (broadcastInDim S64x200 ![] bcast_S_S64x200),
    TRef.binary main_call4.v1 main_call4.v0 main_call4.v2 maximumf,
    TRef.unary main_call4.v2 main_call4.v3 (broadcastInDim S64x200x1 ![0, 1] bcast_S64x200_S64x200x1_0_1),
    TRef.unary main_call4.v3 main_call4.v4 (broadcastInDim S64x200x200 ![0, 1, 2] bcast_S64x200x1_S64x200x200_0_1_2),
    TRef.binary (.of main_v25 : TRef sig ⟨S64x200x200, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S64x200x200_S64x200_d2 h_S_),
    TRef.unary main_call4.v7 main_call4.v8 (broadcastInDim S64x200x1 ![0, 1] bcast_S64x200_S64x200x1_0_1),
    TRef.unary main_call4.v8 main_call4.v9 Host.log,
    TRef.unary main_call4.v9 main_call4.v10 (broadcastInDim S64x200x200 ![0, 1, 2] bcast_S64x200x1_S64x200x200_0_1_2),
    TRef.binary main_call4.v5 main_call4.v10 main_call4.v11 subf,
    nullary main_v27 (iotaInDim S200 32 0),
    nullary main_c_4 (constantI S_ 32 0#32),
    unary main_c_4 main_v28 (broadcastInDim S200 ![] bcast_S_S200 : (⟨S_, .i32⟩ : BufTy).Contents (Elt F) → (⟨S200, .i32⟩ : BufTy).Contents (Elt F)),
    binary main_v27 main_v28 main_v29 (cmpi .slt : (⟨S200, .i32⟩ : BufTy).Contents (Elt F) → (⟨S200, .i32⟩ : BufTy).Contents (Elt F) → (⟨S200, .i1⟩ : BufTy).Contents (Elt F)),
    nullary main_c_5 (constantI S_ 32 200#32),
    unary main_c_5 main_v30 (broadcastInDim S200 ![] bcast_S_S200 : (⟨S_, .i32⟩ : BufTy).Contents (Elt F) → (⟨S200, .i32⟩ : BufTy).Contents (Elt F)),
    binary main_v27 main_v30 main_v31 (addi : (⟨S200, .i32⟩ : BufTy).Contents (Elt F) → (⟨S200, .i32⟩ : BufTy).Contents (Elt F) → (⟨S200, .i32⟩ : BufTy).Contents (Elt F)),
    ternary main_v29 main_v31 main_v27 main_v32 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    nullary main_c_6 (constantI S_ 32 0#32),
    unary main_c_6 main_v33 (broadcastInDim S200 ![] bcast_S_S200 : (⟨S_, .i32⟩ : BufTy).Contents (Elt F) → (⟨S200, .i32⟩ : BufTy).Contents (Elt F)),
    binary main_v27 main_v33 main_v34 (cmpi .slt : (⟨S200, .i32⟩ : BufTy).Contents (Elt F) → (⟨S200, .i32⟩ : BufTy).Contents (Elt F) → (⟨S200, .i1⟩ : BufTy).Contents (Elt F)),
    nullary main_c_7 (constantI S_ 32 200#32),
    unary main_c_7 main_v35 (broadcastInDim S200 ![] bcast_S_S200 : (⟨S_, .i32⟩ : BufTy).Contents (Elt F) → (⟨S200, .i32⟩ : BufTy).Contents (Elt F)),
    binary main_v27 main_v35 main_v36 (addi : (⟨S200, .i32⟩ : BufTy).Contents (Elt F) → (⟨S200, .i32⟩ : BufTy).Contents (Elt F) → (⟨S200, .i32⟩ : BufTy).Contents (Elt F)),
    ternary main_v34 main_v36 main_v27 main_v37 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    unary main_v32 main_v38 (broadcastInDim S200x1 ![0] bcast_S200_S200x1_0 : (⟨S200, .i32⟩ : BufTy).Contents (Elt F) → (⟨S200x1, .i32⟩ : BufTy).Contents (Elt F)),
    unary main_v37 main_v39 (broadcastInDim S200x1 ![0] bcast_S200_S200x1_0 : (⟨S200, .i32⟩ : BufTy).Contents (Elt F) → (⟨S200x1, .i32⟩ : BufTy).Contents (Elt F)),
    binary main_v38 main_v39 main_v40 ((fun a b => concatenate S200x2 1 [⟨S200x1, a⟩, ⟨S200x1, b⟩] concatenates_S200x1_S200x1_S200x2_d1) : (⟨S200x1, .i32⟩ : BufTy).Contents (Elt F) → (⟨S200x1, .i32⟩ : BufTy).Contents (Elt F) → (⟨S200x2, .i32⟩ : BufTy).Contents (Elt F)),
    binary main_v26 main_v40 main_v41 ((fun x i => Host.gather gather_S64x200x200_S200x2_S64x200_0_12_n_n_12_1_6411 x i) : (⟨S64x200x200, .f32⟩ : BufTy).Contents (Elt F) → (⟨S200x2, .i32⟩ : BufTy).Contents (Elt F) → (⟨S64x200, .f32⟩ : BufTy).Contents (Elt F)),
    nullary main_cst_8 (constant S_ .f32 0x00000000#32),
    binary main_v41 main_cst_8 main_v42 ((fun x v => Host.reduceAdd x v reducesTo_S64x200_S64_d1 h_S_) : (⟨S64x200, .f32⟩ : BufTy).Contents (Elt F) → (⟨S_, .f32⟩ : BufTy).Contents (Elt F) → (⟨S64, .f32⟩ : BufTy).Contents (Elt F)),
    nullary main_cst_9 (constant S_ .f32 0x43480000#32),
    unary main_cst_9 main_v43 (broadcastInDim S64 ![] bcast_S_S64 : (⟨S_, .f32⟩ : BufTy).Contents (Elt F) → (⟨S64, .f32⟩ : BufTy).Contents (Elt F)),
    binary main_v42 main_v43 main_v44 (Host.divf : (⟨S64, .f32⟩ : BufTy).Contents (Elt F) → (⟨S64, .f32⟩ : BufTy).Contents (Elt F) → (⟨S64, .f32⟩ : BufTy).Contents (Elt F)),
    unary main_v44 main_v45 (Host.negf : (⟨S64, .f32⟩ : BufTy).Contents (Elt F) → (⟨S64, .f32⟩ : BufTy).Contents (Elt F)),
    nullary main_cst_10 (constant S_ .f32 0x00000000#32),
    binary main_v45 main_cst_10 main_v46 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)) ]

/-- The list is the six stretches one after the other. -/
theorem ops_eq : (ops : List (HloOp τ sig (Elt F))) = opsSeg ++ (opsMerge ++ (opsCos ++ (opsLsm ++ (opsDiag ++ opsLoss)))) := rfl

set_option maxRecDepth 4096 in
set_option maxHeartbeats 1600000 in
/-- @main is that straight line: the functions' definitions unfolded at their calls and the records at their fields,
    both sides are one chain of steps once sequencing is reassociated. -/
theorem main_eq (c : Dev nD) : main (F := F) c = seq ops := by
  simp only [main, main_part0, main_part1, fn_floor_divide.body, fn_where.body, fn_remainder.body, fn_where_0.body,
    fn_norm.body, fn_log_softmax.body, ops, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., nullary_bufs_sub .., unary_bufs_sub .., unary_bufs_sub ..,
    ternary_bufs_sub .., unary_bufs_sub .., unary_bufs_sub .., nullary_bufs_sub .., unary_bufs_sub .., unary_bufs_sub ..,
    ternary_bufs_sub .., unary_bufs_sub .., binary_bufs_sub .., binary_bufs_sub .., nullary_bufs_sub .., binary_bufs_sub ..,
    unary_bufs_sub .., binary_bufs_sub .., nullary_bufs_sub .., binary_bufs_sub .., unary_bufs_sub .., unary_bufs_sub ..,
    unary_bufs_sub .., unary_bufs_sub .., unary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., nullary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., binary_bufs_sub .., nullary_bufs_sub .., unary_bufs_sub .., binary_bufs_sub .., unary_bufs_sub ..,
    nullary_bufs_sub .., binary_bufs_sub ..⟩

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's computation after the segment numbers, cut into stages, each one pure term of its operands:
  the segment sums of a feature array (`mergedT`), the row norms (`normT`), the clamped cosines (`cosT`), the row-wise
  log-softmax (`logsmT`), the diagonal (`diagT`, a gather at the index pairs `(k, k)`), and the loss (`lossT`: the
  diagonal's row sums divided by the count, negated, summed over the batch).  `refVal` composes them.
-/
import proofs.«176695_j24215025615023_2_alg».proof.ReferenceIdeal
import Idealize.ShloMosaic.PureOps.Ideal

noncomputable section

namespace Cert.ReferenceIdeal.RefTerm

open Idealize.ShloMosaic Cert.ReferenceIdeal

variable [Facts]
open Facts₀ Facts

/-- Segment sums of one feature array `[64, 512, 600]`, as `[64, 200, 512]`: the time axis moved to the front, the
    rows added into zeros at their segment numbers, the batch axis moved back to the front. -/
def mergedT (seg : IVec S600 32) (x : FVec Ideal S64x512x600 .f32) : FVec Ideal S64x200x512 .f32 :=
  transpose S64x200x512 [1, 0, 2]
    (Host.scatterAdd (F := Ideal) scatter_S200x64x512_S600x1_S600x64x512_12_0_0_1
      (broadcastInDim S200x64x512 ![] bcast_S_S200x64x512 (constant (F := Ideal) S_ .f32 0x00000000#32))
      (broadcastInDim S600x1 ![0] bcast_S600_S600x1_0 seg)
      (transpose S600x64x512 [2, 0, 1] x transposes_S64x512x600_S600x64x512_2_0_1))
    transposes_S200x64x512_S64x200x512_1_0_2

/-- The Euclidean norm of every row `(b, m)`. -/
def normT (A : FVec Ideal S64x200x512 .f32) : FVec Ideal S64x200 .f32 :=
  Host.sqrt (Host.reduceAdd (F := Ideal) (mulf A A) (constant (F := Ideal) S_ .f32 0x00000000#32) reducesTo_S64x200x512_S64x200_d2 h_S_)

/-- The clamped cosines `(b, m, n)`. -/
def cosT (A B : FVec Ideal S64x200x512 .f32) : FVec Ideal S64x200x200 .f32 :=
  Host.divf (F := Ideal) (Host.dotGeneral (F := Ideal) dot_S64x200x512_S64x200x512_S64x200x200_2_2_1_1_0_0 none A B)
    (maximumf
      (mulf
        (broadcastInDim S64x200x200 ![0, 1, 2] bcast_S64x200x1_S64x200x200_0_1_2
          (broadcastInDim S64x200x1 ![0, 1] bcast_S64x200_S64x200x1_0_1 (normT A)))
        (broadcastInDim S64x200x200 ![0, 1, 2] bcast_S64x1x200_S64x200x200_0_1_2
          (broadcastInDim S64x1x200 ![0, 2] bcast_S64x200_S64x1x200_0_2 (normT B))))
      (broadcastInDim S64x200x200 ![] bcast_S_S64x200x200 (constant (F := Ideal) S_ .f32 0x322BCC77#32)))

/-- The row maxima `(b, m)` of the log-softmax: the fold from `-∞`, met once more with `-∞`. -/
def rowmaxT (C : FVec Ideal S64x200x200 .f32) : FVec Ideal S64x200 .f32 :=
  maximumf (broadcastInDim S64x200 ![] bcast_S_S64x200 (constant (F := Ideal) S_ .f32 0xFF800000#32))
    (Host.reduce (FloatOps.maximumf (F := Ideal) (φ := .f32)) C (constant (F := Ideal) S_ .f32 0xFF800000#32) reducesTo_S64x200x200_S64x200_d2 h_S_)

/-- The rows shifted by their maxima. -/
def shiftedT (C : FVec Ideal S64x200x200 .f32) : FVec Ideal S64x200x200 .f32 :=
  subf C (broadcastInDim S64x200x200 ![0, 1, 2] bcast_S64x200x1_S64x200x200_0_1_2
    (broadcastInDim S64x200x1 ![0, 1] bcast_S64x200_S64x200x1_0_1 (rowmaxT C)))

/-- The row-wise log-softmax. -/
def logsmT (C : FVec Ideal S64x200x200 .f32) : FVec Ideal S64x200x200 .f32 :=
  subf (shiftedT C) (broadcastInDim S64x200x200 ![0, 1, 2] bcast_S64x200x1_S64x200x200_0_1_2
    (Host.log (F := Ideal) (broadcastInDim S64x200x1 ![0, 1] bcast_S64x200_S64x200x1_0_1
      (Host.reduceAdd (F := Ideal) (Host.exp (F := Ideal) (shiftedT C)) (constant (F := Ideal) S_ .f32 0x00000000#32) reducesTo_S64x200x200_S64x200_d2 h_S_))))

/-- One column of the diagonal's index pairs: `k`, wrapped by `200` were it negative. -/
def diagCol : IVec S200 32 :=
  select (cmpi .slt (iotaInDim S200 32 0) (broadcastInDim S200 ![] bcast_S_S200 (constantI S_ 32 0#32)))
    (addi (iotaInDim S200 32 0) (broadcastInDim S200 ![] bcast_S_S200 (constantI S_ 32 200#32)))
    (iotaInDim S200 32 0)

/-- The index pairs `(k, k)`. -/
def diagIdx : IVec S200x2 32 :=
  concatenate S200x2 1 [⟨S200x1, broadcastInDim S200x1 ![0] bcast_S200_S200x1_0 diagCol⟩, ⟨S200x1, broadcastInDim S200x1 ![0] bcast_S200_S200x1_0 diagCol⟩]
    concatenates_S200x1_S200x1_S200x2_d1

/-- The diagonal `(b, k)` of `L`. -/
def diagT (L : FVec Ideal S64x200x200 .f32) : FVec Ideal S64x200 .f32 :=
  Host.gather gather_S64x200x200_S200x2_S64x200_0_12_n_n_12_1_6411 L diagIdx

/-- Minus the mean of every row, summed over the batch. -/
def lossT (D : FVec Ideal S64x200 .f32) : FVec Ideal S_ .f32 :=
  Host.reduceAdd (F := Ideal)
    (Host.negf (F := Ideal) (Host.divf (F := Ideal)
      (Host.reduceAdd (F := Ideal) D (constant (F := Ideal) S_ .f32 0x00000000#32) reducesTo_S64x200_S64_d1 h_S_)
      (broadcastInDim S64 ![] bcast_S_S64 (constant (F := Ideal) S_ .f32 0x43480000#32))))
    (constant (F := Ideal) S_ .f32 0x00000000#32) reducesTo_S64_S_d0 h_S_

/-- The reference's result as one term of the segment numbers and the two feature arrays. -/
def refVal (seg : IVec S600 32) (x y : FVec Ideal S64x512x600 .f32) : FVec Ideal S_ .f32 :=
  lossT (diagT (logsmT (cosT (mergedT seg x) (mergedT seg y))))

end Cert.ReferenceIdeal.RefTerm

end
-- ==== Proof.RefRunC.lean ====
/-
  What the reference's cosine stage and log-softmax stage leave in their result buffers, at the exact-arithmetic
  instance: the eighteen operations of the cosine stage leave the clamped cosines of the two segment-sum arrays, the
  fifteen of the log-softmax stage the row-wise log-softmax of the cosines.
-/
import proofs.«176695_j24215025615023_2_alg».proof.Proof.RefRunA
import proofs.«176695_j24215025615023_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Facts]
open Facts₀ Facts

/-- The cosine stage leaves the clamped cosines of the two segment-sum arrays. -/
theorem cos_v25 (V : Valuation τ sig (Elt Ideal)) :
    after (opsCos (F := Ideal)) V (main_v25 : DevRef τ sig)
      = RefTerm.cosT (V (main_v9 : DevRef τ sig)) (V (main_v14 : DevRef τ sig)) := by
  after_results_simp
  rfl

/-- Contents moved to a typed reference's buffer type and back are unchanged. -/
theorem ofBuf_toBuf {Val : EltTy → Type} {T : BufTy} (x : TRef sig T) (v : T.Contents Val) : x.ofBuf (x.toBuf v) = v := by
  obtain ⟨r, h, _, _⟩ := x
  subst h
  rfl

/-- The log-softmax stage leaves the row-wise log-softmax of the cosines. -/
theorem lsm_v26 (V : Valuation τ sig (Elt Ideal)) :
    after (opsLsm (F := Ideal)) V (main_v26 : DevRef τ sig) = RefTerm.logsmT (V (main_v25 : DevRef τ sig)) := by
  after_results_simp
  simp only [ofBuf_toBuf]
  rfl

end Cert.ReferenceIdeal.RefRun

end
-- ==== Proof.RefRunB.lean ====
/-
  What the reference's first two stages leave in its buffers, at the exact-arithmetic instance: the 44 integer
  operations leave the segment numbers' pure term `segT` and do not touch the feature arrays; the next twelve leave
  the two segment sums, each `mergedT` of the segment numbers and one feature array.  No operation of the whole list
  writes an argument array.
-/
import proofs.«176695_j24215025615023_2_alg».proof.Proof.RefRunA
import proofs.«176695_j24215025615023_2_alg».proof.Proof.RefTerm
import proofs.«176695_j24215025615023_2_alg».proof.Proof.SegTerm
import proofs.«176695_j24215025615023_2_alg».proof.Proof.RefRunC

noncomputable section

namespace Cert.ReferenceIdeal.RefRun

open Cert.ReferenceIdeal Idealize.ShloMosaic Idealize.ShloMosaic.TcCoe Idealize.SL.Sem Idealize.ShloMosaic.StableHlo

variable [Facts]
open Facts₀ Facts

/-- Two stretches run one after the other: the second's fold over the first's. -/
theorem after_app {F : FTy → Type} : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The segment numbers -/

set_option maxHeartbeats 1600000 in
/-- The 44 integer operations leave the segment numbers' pure term: each operation's result read back, the moves of
    the called functions' values to their buffers' types and back cancelled, the term's local names opened. -/
theorem seg_v4 (V : Valuation τ sig (Elt Ideal)) :
    after (opsSeg (F := Ideal)) V (main_v4 : DevRef τ sig) = Cert.SyncLoss.segT bcast_S_S600 := by
  after_results_simp
  simp only [ofBuf_toBuf]
  unfold Cert.SyncLoss.segT
  rfl

/-- They do not write the first feature array. -/
theorem seg_arg1 (V : Valuation τ sig (Elt Ideal)) :
    after (opsSeg (F := Ideal)) V (main_arg1 : DevRef τ sig) = V (main_arg1 : DevRef τ sig) := by
  after_results_simp

/-- They do not write the second feature array. -/
theorem seg_arg2 (V : Valuation τ sig (Elt Ideal)) :
    after (opsSeg (F := Ideal)) V (main_arg2 : DevRef τ sig) = V (main_arg2 : DevRef τ sig) := by
  after_results_simp

/-! ## The segment sums -/

/-- The first feature array's segment sums. -/
theorem merge_v9 (V : Valuation τ sig (Elt Ideal)) :
    after (opsMerge (F := Ideal)) V (main_v9 : DevRef τ sig)
      = RefTerm.mergedT (V (main_v4 : DevRef τ sig)) (V (main_arg1 : DevRef τ sig)) := by
  after_results_simp
  rfl

/-- The second feature array's segment sums. -/
theorem merge_v14 (V : Valuation τ sig (Elt Ideal)) :
    after (opsMerge (F := Ideal)) V (main_v14 : DevRef τ sig)
      = RefTerm.mergedT (V (main_v4 : DevRef τ sig)) (V (main_arg2 : DevRef τ sig)) := by
  after_results_simp
  rfl

end Cert.ReferenceIdeal.RefRun

end
-- ==== Proof.RefRunD.lean ====
/-
  The reference's run over its last two stages: after the operations of the diagonal the gathered buffer holds the
  diagonal of the log-softmax buffer, and after the operations of the loss the result buffer holds the loss of the
  diagonal buffer, each as the stage's pure term of the buffer it starts from.
-/
import proofs.«176695_j24215025615023_2_alg».proof.Proof.RefRunA
import proofs.«176695_j24215025615023_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Facts]
open Facts₀ Facts

/-- After the diagonal's operations the gathered buffer holds the diagonal of the log-softmax buffer. -/
theorem diag_v41 (V : Valuation τ sig (Elt Ideal)) :
    after (opsDiag (F := Ideal)) V (main_v41 : DevRef τ sig) = RefTerm.diagT (V (main_v26 : DevRef τ sig)) := by
  after_results_simp
  rfl

/-- After the loss's operations the result buffer holds the loss of the diagonal buffer. -/
theorem loss_v46 (V : Valuation τ sig (Elt Ideal)) :
    after (opsLoss (F := Ideal)) V (main_v46 : DevRef τ sig) = RefTerm.lossT (V (main_v41 : DevRef τ sig)) := by
  after_results
  rfl

end Cert.ReferenceIdeal.RefRun

end
-- ==== Proof.RefRunE.lean ====
/-
  No operation of the reference writes one of its three argument arrays: after the whole list each holds what it held.
-/
import proofs.«176695_j24215025615023_2_alg».proof.Proof.RefRunA

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

set_option maxRecDepth 4096 in
set_option maxHeartbeats 1600000 in
theorem arg0_eq (V : Valuation τ sig (Elt F)) :
    after (ops (F := F)) V (main_arg0 : DevRef τ sig) = V (main_arg0 : DevRef τ sig) := by
  after_results_simp

set_option maxRecDepth 4096 in
set_option maxHeartbeats 1600000 in
theorem arg1_eq (V : Valuation τ sig (Elt F)) :
    after (ops (F := F)) V (main_arg1 : DevRef τ sig) = V (main_arg1 : DevRef τ sig) := by
  after_results_simp

set_option maxRecDepth 4096 in
set_option maxHeartbeats 1600000 in
theorem arg2_eq (V : Valuation τ sig (Elt F)) :
    after (ops (F := F)) V (main_arg2 : DevRef τ sig) = V (main_arg2 : DevRef τ sig) := by
  after_results_simp

end Cert.ReferenceIdeal.RefRun

end
-- ==== Proof.RefRun.lean ====
/-
  The reference's run.  Every weakly fair execution of @main terminates; its result buffer then holds `refVal` of the
  segment numbers' pure term and the two feature arrays — the stages' terms composed: the loss of the diagonal of the
  row-wise log-softmax of the clamped cosines of the two segment sums — and the three argument arrays hold what they
  held at launch.
-/
import proofs.«176695_j24215025615023_2_alg».proof.Proof.RefRunA
import proofs.«176695_j24215025615023_2_alg».proof.Proof.RefRunB
import proofs.«176695_j24215025615023_2_alg».proof.Proof.RefRunC
import proofs.«176695_j24215025615023_2_alg».proof.Proof.RefRunD
import proofs.«176695_j24215025615023_2_alg».proof.Proof.RefRunE
import proofs.«176695_j24215025615023_2_alg».proof.Proof.RefTerm
import proofs.«176695_j24215025615023_2_alg».proof.Proof.SegTerm

noncomputable section

namespace Cert.ReferenceIdeal.RefRun

open Cert.ReferenceIdeal Idealize.ShloMosaic Idealize.ShloMosaic.TcCoe Idealize.SL.Sem Idealize.ShloMosaic.StableHlo

variable [Facts]
open Facts₀ Facts

/-- The whole list leaves, in the result buffer, the stages' terms composed. -/
theorem out_eq (V : Valuation τ sig (Elt Ideal)) :
    after (ops (F := Ideal)) V (main_v46 : DevRef τ sig)
      = RefTerm.refVal (Cert.SyncLoss.segT bcast_S_S600) (V (main_arg1 : DevRef τ sig)) (V (main_arg2 : DevRef τ sig)) := by
  rw [ops_eq, after_app, after_app, after_app, after_app, after_app, loss_v46, diag_v41, lsm_v26, cos_v25, merge_v9,
    merge_v14, seg_v4, seg_arg1, seg_arg2]
  rfl

/-- On every device, from any memory with zero counters: every weakly fair execution of @main terminates with the
    result at `refVal` of the segment numbers and the two feature arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = RefTerm.refVal (Cert.SyncLoss.segT bcast_S_S600) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v46).trans (out_eq _), (h c main_arg0).trans (arg0_eq _),
      (h c main_arg1).trans (arg1_eq _), (h c main_arg2).trans (arg2_eq _)⟩)
    (run_main m ρ)

end Cert.ReferenceIdeal.RefRun

end
-- ==== Proof.LibScatterRows.lean ====
/-
  A scatter-add of whole rows along the leading axis, read at an element.

  The operand is an [M, B, C] array, the updates are T rows [T, B, C], and the start indices are a column [T, 1] of
  integers: row t of the updates is added into row idx[t, 0] of the operand (update window axes [1, 2], inserted window
  axis [0], the one index component naming operand axis 0, index vector axis 1). The start index is read SIGNED and is
  not clamped: a row whose start index is negative or at least M is dropped. Read at element (m, b, c) the result is the
  operand's element plus the sum, over the rows t whose start index is m, of the update's element (t, b, c).
-/
import Idealize.ShloMosaic.PureOps.Ideal
import Idealize.ShloMosaic.Lib.ValueIdx

noncomputable section

namespace Cert.Lib.ScatterRows

open Idealize.ShloMosaic Idealize.ShloMosaic.ValueIdx

/-- The dimension numbers of a scatter of whole rows `[T, B, C]` into `[M, B, C]` along axis 0 at a column `[T, 1]` of
    start indices; their conditions `wf` are decided on a program's literal shapes. -/
abbrev rowsDims (M T B C : Nat)
    (wf : ScatterDims.WF ⟨3, ![M, B, C]⟩ ⟨2, ![T, 1]⟩ ⟨3, ![T, B, C]⟩ [1, 2] [0] [0] 1) :
    ScatterDims ⟨3, ![M, B, C]⟩ ⟨2, ![T, 1]⟩ ⟨3, ![T, B, C]⟩ where
  updateWindowDims := [1, 2]
  insertedWindowDims := [0]
  scatterDimsToOperandDims := [0]
  indexVectorDim := 1
  wf := wf

variable {M T B C : Nat} (wf : ScatterDims.WF ⟨3, ![M, B, C]⟩ ⟨2, ![T, 1]⟩ ⟨3, ![T, B, C]⟩ [1, 2] [0] [0] 1) {w : Nat}

/-- On the scattered axis the window of update row `t` starts at the start index `idx[t, 0]`, read signed. -/
theorem start_zero (t : Fin T) (b : Fin B) (c : Fin C) (idx : IVec ⟨2, ![T, 1]⟩ w) :
    (rowsDims M T B C wf).start (ix3 t b c) idx 0 = (idx (ix2 t 0)).toInt := by
  unfold ScatterDims.start
  rw [dif_pos (show (0 : Fin 3) ∈ (rowsDims M T B C wf).scatterDimsToOperandDims from List.mem_singleton.mpr rfl)]
  have hsi : (rowsDims M T B C wf).siIdx (ix3 t b c) ⟨List.idxOf (0 : Fin 3) (rowsDims M T B C wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- On the first window axis the window starts at `0`. -/
theorem start_one (t : Fin T) (b : Fin B) (c : Fin C) (idx : IVec ⟨2, ![T, 1]⟩ w) :
    (rowsDims M T B C wf).start (ix3 t b c) idx 1 = 0 := by
  unfold ScatterDims.start
  rw [dif_neg (show ¬ (1 : Fin 3) ∈ ([0] : List (Fin 3)) from by decide)]

/-- On the second window axis the window starts at `0`. -/
theorem start_two (t : Fin T) (b : Fin B) (c : Fin C) (idx : IVec ⟨2, ![T, 1]⟩ w) :
    (rowsDims M T B C wf).start (ix3 t b c) idx 2 = 0 := by
  unfold ScatterDims.start
  rw [dif_neg (show ¬ (2 : Fin 3) ∈ ([0] : List (Fin 3)) from by decide)]

/-- The scattered axis is an inserted one: the window coordinate there is `0`. -/
theorem window_zero (t : Fin T) (b : Fin B) (c : Fin C) :
    (rowsDims M T B C wf).window (ix3 t b c) 0 = 0 := by
  unfold ScatterDims.window
  have h : ¬ (0 : Fin 3) ∈ (rowsDims M T B C wf).sKept := (show ¬ (0 : Fin 3) ∈ ([1, 2] : List (Fin 3)) from by decide)
  rw [dif_neg h]

/-- The window coordinate on operand axis 1 is the update's coordinate on its axis 1. -/
theorem window_one (t : Fin T) (b : Fin B) (c : Fin C) :
    (rowsDims M T B C wf).window (ix3 t b c) 1 = b.val := by
  unfold ScatterDims.window
  have h : (1 : Fin 3) ∈ (rowsDims M T B C wf).sKept := (show (1 : Fin 3) ∈ ([1, 2] : List (Fin 3)) from by decide)
  rw [dif_pos h]
  rfl

/-- The window coordinate on operand axis 2 is the update's coordinate on its axis 2. -/
theorem window_two (t : Fin T) (b : Fin B) (c : Fin C) :
    (rowsDims M T B C wf).window (ix3 t b c) 2 = c.val := by
  unfold ScatterDims.window
  have h : (2 : Fin 3) ∈ (rowsDims M T B C wf).sKept := (show (2 : Fin 3) ∈ ([1, 2] : List (Fin 3)) from by decide)
  rw [dif_pos h]
  rfl

/-- Where an update row lands: update element `(t, b', c')` lands on operand element `(m, b, c)` exactly when the
    start index of row `t`, read signed, is `m`, and the two window coordinates agree. -/
theorem resultIdx?_eq_some_iff (t : Fin T) (b' b : Fin B) (c' c : Fin C) (m : Fin M) (idx : IVec ⟨2, ![T, 1]⟩ w) :
    (rowsDims M T B C wf).resultIdx? (ix3 t b' c') idx = some (ix3 m b c) ↔
      (idx (ix2 t 0)).toInt = (m.val : Int) ∧ b' = b ∧ c' = c := by
  unfold ScatterDims.resultIdx?
  constructor
  · intro h
    split at h
    · rename_i hh
      have e := Option.some.inj h
      have e0 : ((rowsDims M T B C wf).start (ix3 t b' c') idx 0 + (rowsDims M T B C wf).window (ix3 t b' c') 0).toNat = m.val :=
        congrArg (fun i : (⟨3, ![M, B, C]⟩ : Shape).Idx => (i 0).val) e
      have e1 : ((rowsDims M T B C wf).start (ix3 t b' c') idx 1 + (rowsDims M T B C wf).window (ix3 t b' c') 1).toNat = b.val :=
        congrArg (fun i : (⟨3, ![M, B, C]⟩ : Shape).Idx => (i 1).val) e
      have e2 : ((rowsDims M T B C wf).start (ix3 t b' c') idx 2 + (rowsDims M T B C wf).window (ix3 t b' c') 2).toNat = c.val :=
        congrArg (fun i : (⟨3, ![M, B, C]⟩ : Shape).Idx => (i 2).val) e
      have h0 := (hh 0).1
      rw [start_zero, window_zero] at e0 h0
      rw [start_one, window_one] at e1
      rw [start_two, window_two] at e2
      refine ⟨?_, Fin.ext ?_, Fin.ext ?_⟩
      · omega
      · omega
      · omega
    · cases h
  · rintro ⟨h0, rfl, rfl⟩
    have hh : ∀ a, 0 ≤ (rowsDims M T B C wf).start (ix3 t b' c') idx a + (rowsDims M T B C wf).window (ix3 t b' c') a ∧
        (rowsDims M T B C wf).start (ix3 t b' c') idx a + (rowsDims M T B C wf).window (ix3 t b' c') a <
          ((⟨3, ![M, B, C]⟩ : Shape).size a : Int) := by
      intro a
      match a with
      | ⟨0, _⟩ =>
        have := m.isLt
        show 0 ≤ (rowsDims M T B C wf).start (ix3 t b' c') idx 0 + (rowsDims M T B C wf).window (ix3 t b' c') 0 ∧
          (rowsDims M T B C wf).start (ix3 t b' c') idx 0 + (rowsDims M T B C wf).window (ix3 t b' c') 0 < (M : Int)
        rw [start_zero, window_zero, h0]; omega
      | ⟨1, _⟩ =>
        have := b'.isLt
        show 0 ≤ (rowsDims M T B C wf).start (ix3 t b' c') idx 1 + (rowsDims M T B C wf).window (ix3 t b' c') 1 ∧
          (rowsDims M T B C wf).start (ix3 t b' c') idx 1 + (rowsDims M T B C wf).window (ix3 t b' c') 1 < (B : Int)
        rw [start_one, window_one]; omega
      | ⟨2, _⟩ =>
        have := c'.isLt
        show 0 ≤ (rowsDims M T B C wf).start (ix3 t b' c') idx 2 + (rowsDims M T B C wf).window (ix3 t b' c') 2 ∧
          (rowsDims M T B C wf).start (ix3 t b' c') idx 2 + (rowsDims M T B C wf).window (ix3 t b' c') 2 < (C : Int)
        rw [start_two, window_two]; omega
    rw [dif_pos hh]
    refine congrArg some (funext fun a => Fin.ext ?_)
    match a with
    | ⟨0, _⟩ =>
      show ((rowsDims M T B C wf).start (ix3 t b' c') idx 0 + (rowsDims M T B C wf).window (ix3 t b' c') 0).toNat = m.val
      rw [start_zero, window_zero, h0]; omega
    | ⟨1, _⟩ =>
      show ((rowsDims M T B C wf).start (ix3 t b' c') idx 1 + (rowsDims M T B C wf).window (ix3 t b' c') 1).toNat = b'.val
      rw [start_one, window_one]; omega
    | ⟨2, _⟩ =>
      show ((rowsDims M T B C wf).start (ix3 t b' c') idx 2 + (rowsDims M T B C wf).window (ix3 t b' c') 2).toNat = c'.val
      rw [start_two, window_two]; omega

/-- A scatter-add of whole rows read at an element: the operand's element plus the sum, over the rows whose start index
    (read signed) is `m`, of the row's element at the same window coordinates. -/
theorem scatterAdd_rows_apply {φ : FTy} (x : FVec Ideal ⟨3, ![M, B, C]⟩ φ) (idx : IVec ⟨2, ![T, 1]⟩ w)
    (upd : FVec Ideal ⟨3, ![T, B, C]⟩ φ) (m : Fin M) (b : Fin B) (c : Fin C) :
    Host.scatterAdd (F := Ideal) (rowsDims M T B C wf) x idx upd (ix3 m b c) =
      x (ix3 m b c) + ∑ t : Fin T, if (idx (ix2 t 0)).toInt = (m.val : Int) then upd (ix3 t b c) else 0 := by
  show Ideal.hostScatterAdd (rowsDims M T B C wf) x idx upd (ix3 m b c) = _
  unfold Ideal.hostScatterAdd
  refine congrArg (x (ix3 m b c) + ·) ?_
  rw [← Finset.sum_filter]
  have key : ∀ j : (⟨3, ![T, B, C]⟩ : Shape).Idx,
      (rowsDims M T B C wf).resultIdx? j idx = some (ix3 m b c) ↔
        (idx (ix2 (j 0) 0)).toInt = (m.val : Int) ∧ j 1 = b ∧ j 2 = c := by
    intro j
    have e : (rowsDims M T B C wf).resultIdx? j idx = (rowsDims M T B C wf).resultIdx? (ix3 (j 0) (j 1) (j 2)) idx :=
      congrArg (fun q => (rowsDims M T B C wf).resultIdx? q idx) (eq_ix3 j)
    rw [e]
    exact resultIdx?_eq_some_iff wf (j 0) (j 1) b (j 2) c m idx
  refine Finset.sum_bij' (fun j _ => j 0) (fun t _ => ix3 t b c) ?_ ?_ ?_ ?_ ?_
  · intro j hj
    rw [Finset.mem_filter] at hj
    exact Finset.mem_filter.2 ⟨Finset.mem_univ _, ((key j).1 hj.2).1⟩
  · intro t ht
    rw [Finset.mem_filter] at ht
    exact Finset.mem_filter.2 ⟨Finset.mem_univ _, (key (ix3 t b c)).2 ⟨ht.2, rfl, rfl⟩⟩
  · intro j hj
    rw [Finset.mem_filter] at hj
    obtain ⟨-, hb, hc⟩ := (key j).1 hj.2
    show ix3 (j 0) b c = j
    rw [← hb, ← hc]
    exact (eq_ix3 j).symm
  · intro t _
    rfl
  · intro j hj
    rw [Finset.mem_filter] at hj
    obtain ⟨-, hb, hc⟩ := (key j).1 hj.2
    show upd j = upd (ix3 (j 0) b c)
    rw [← hb, ← hc]
    exact congrArg upd (eq_ix3 j)

end Cert.Lib.ScatterRows

end
-- ==== Proof.RefMerged.lean ====
/-
  The reference's segment sums read at an entry.

  The reference moves the time axis of a feature array [64, 512, 600] to the front, adds the 600 rows [64, 512] into an
  array of zeros [200, 64, 512] at the rows' segment numbers, and moves the batch axis back to the front. Read at
  (b, m, f) this is the sum of x[b, f, t] over the time steps t of segment m.
-/
import proofs.«176695_j24215025615023_2_alg».proof.Proof.Spec
import proofs.«176695_j24215025615023_2_alg».proof.Proof.RefTerm
import proofs.«176695_j24215025615023_2_alg».proof.Proof.LibScatterRows
import Idealize.ShloMosaic.Lib.Pipeline.Value
import Idealize.ShloMosaic.PureOps.Ideal.Laws
import Idealize.ShloMosaic.Lib.ValueIdx

noncomputable section

namespace Cert.ReferenceIdeal.RefMerged

open Idealize.ShloMosaic Idealize.ShloMosaic.ValueIdx Cert.ReferenceIdeal

variable [Facts]
open Facts₀ Facts

/-- The time-major copy of a feature array at `(t, b, f)` is the array at `(b, f, t)`. -/
theorem timeMajor_apply (x : FVec Ideal S64x512x600 .f32) (t : Fin 600) (b : Fin 64) (f : Fin 512) :
    transpose S600x64x512 [2, 0, 1] x transposes_S64x512x600_S600x64x512_2_0_1 (ix3 t b f) = x (ix3 b f t) :=
  transpose_apply [2, 0, 1] x transposes_S64x512x600_S600x64x512_2_0_1 (ix3 t b f) (ix3 b f t) (by
    intro a
    match a with
    | ⟨0, _⟩ => rfl
    | ⟨1, _⟩ => rfl
    | ⟨2, _⟩ => rfl)

/-- The column of start indices at `(t, 0)` is the segment number of time step `t`. -/
theorem segColumn_apply (seg : IVec S600 32) (t : Fin 600) :
    broadcastInDim S600x1 ![0] bcast_S600_S600x1_0 seg (ix2 t 0) = seg (ix1 t) :=
  broadcastInDim_apply ![0] bcast_S600_S600x1_0 seg (ix2 t 0) (ix1 t) (by
    intro a
    match a with
    | ⟨0, _⟩ => rfl)

/-- The array the rows are added into is zero everywhere. -/
theorem zeros_apply (i : S200x64x512.Idx) :
    broadcastInDim S200x64x512 ![] bcast_S_S200x64x512 (constant (F := Ideal) S_ .f32 0x00000000#32) i = 0 := by
  rw [broadcastInDim_apply ![] bcast_S_S200x64x512 _ i ix0 (fun a => a.elim0), constant_apply]
  exact Ideal.ofBits_zero_f32

/-- The reference's segment sums at `(b, m, f)`: the sum of `x[b, f, t]` over the time steps `t` whose segment number is `m`. -/
theorem mergedT_apply (seg : IVec S600 32) (x : FVec Ideal S64x512x600 .f32) (b : Fin 64) (m : Fin 200) (f : Fin 512) :
    RefTerm.mergedT seg x (ix3 b m f) =
      Cert.SyncLoss.merged (fun t => seg (ix1 t)) (fun f t => x (ix3 b f t)) m f := by
  unfold RefTerm.mergedT
  rw [transpose_apply [1, 0, 2] _ transposes_S200x64x512_S64x200x512_1_0_2 (ix3 b m f) (ix3 m b f) (by
    intro a
    match a with
    | ⟨0, _⟩ => rfl
    | ⟨1, _⟩ => rfl
    | ⟨2, _⟩ => rfl)]
  have hd : scatter_S200x64x512_S600x1_S600x64x512_12_0_0_1 =
      Cert.Lib.ScatterRows.rowsDims 200 600 64 512 scatter_S200x64x512_S600x1_S600x64x512_12_0_0_1_wf := rfl
  rw [hd, Cert.Lib.ScatterRows.scatterAdd_rows_apply, zeros_apply, zero_add]
  unfold Cert.SyncLoss.merged
  refine Finset.sum_congr rfl fun t _ => ?_
  rw [segColumn_apply, timeMajor_apply]

end Cert.ReferenceIdeal.RefMerged

end
-- ==== Proof.LibRank3Ref.lean ====
/-
  Rank-3 arrays read at an index given by coordinates.

  A reduction over the last axis of an [a, b, c] array gives an [a, b] array; read at (p, q) it ranges over the
  entries (p, q, k). Its result is spread back over a third axis in two ways: kept as an [a, b, 1] column and
  broadcast to [a, b, c] (constant along the last axis), or kept as an [a, 1, b] row and broadcast to [a, c, b]
  (constant along the middle axis). A batched contraction of the last axes of an [B, M, K] and an [B, N, K] array
  reads at (b, m, n) the sum over k of l[b, m, k] · r[b, n, k]. All at the exact (extended real) reading of floats.
-/
import Idealize.ShloMosaic.PureOps.Ideal.Laws
import Idealize.ShloMosaic.Lib.ValueIdx
import Idealize.ShloMosaic.Lib.ValueLayout
import Idealize.ShloMosaic.PureOps.Reduce

open scoped BigOperators

noncomputable section

namespace Cert.Lib.Rank3
open Idealize.ShloMosaic Idealize.ShloMosaic.ValueIdx

/-! ## A reduction over the last axis -/

/-- Over a rank-3 array reduced along its last axis, the source index over (p, q) with last coordinate `k`
    inserted is the index (p, q, k). -/
theorem lift_ix2 {a b c : Nat} (h : (⟨3, ![a, b, c]⟩ : Shape).Reduces [2] ⟨2, ![a, b]⟩) (p : Fin a) (q : Fin b)
    (k : Fin c) : h.lift (ix2 p q) k = ix3 p q k := by
  funext d
  match d with
  | ⟨0, _⟩ => rfl
  | ⟨1, _⟩ => rfl
  | ⟨2, _⟩ => rfl

/-- The host's float sum over the last axis of a rank-3 array, at the extended reals and read at (p, q): the
    initial value plus the sum over `k` of the entries (p, q, k). -/
theorem hostReduceAdd_last {a b c : Nat} {u : Shape} (x : FVec Ideal ⟨3, ![a, b, c]⟩ .f32)
    (init : FVec Ideal u .f32) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduceAdd x init h' hu (ix2 p q) = init (Shape.Idx.first hu) + ∑ k : Fin c, x (ix3 p q k) := by
  show Ideal.hostReduceAdd h' x (init (Shape.Idx.first hu)) (ix2 p q) = _
  rw [Ideal.hostReduceAdd_single h' h]
  exact congrArg (init (Shape.Idx.first hu) + ·)
    (Finset.sum_congr rfl fun k _ => congrArg x (lift_ix2 h p q k))

/-- The host's reduction with the maximum as its body over the last axis of a rank-3 array of extended reals, read
    at (p, q): the fold of `max` from the initial value over `k` of the entries (p, q, k). -/
theorem hostReduce_maximumf_last {a b c : Nat} {u : Shape} (x : (⟨3, ![a, b, c]⟩ : Shape).Idx → EReal)
    (init : u.Idx → EReal) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single _ x init h' h hu (ix2 p q)).trans ?_
  have e : (x ∘ h.lift (ix2 p q)) = fun k : Fin c => x (ix3 p q k) :=
    funext fun k => congrArg x (lift_ix2 h p q k)
  rw [e]
  rfl

/-! ## Keeping the reduced axis and spreading over it -/

variable {α : Type}

/-- An [a, b] array broadcast along the axes [0, 1] to [a, b, 1] reads, at (p, q, u), the array at (p, q). -/
theorem broadcastInDim_ab_ab1_apply {a b : ℕ} (v : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (p : Fin a) (q : Fin b) (u : Fin 1) : broadcastInDim ⟨3, ![a, b, 1]⟩ ![0, 1] h v (ix3 p q u) = v (ix2 p q) := by
  refine broadcastInDim_apply _ h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, b, 1] column broadcast along the axes [0, 1, 2] to [a, b, c] reads, at (p, q, r), the column at (p, q). -/
theorem broadcastInDim_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (p : Fin a) (q : Fin b) (r : Fin c) :
    broadcastInDim ⟨3, ![a, b, c]⟩ ![0, 1, 2] h v (ix3 p q r) = v (ix3 p q (0 : Fin 1)) := by
  refine broadcastInDim_apply _ h v (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, b] array broadcast along the axes [0, 2] to [a, 1, b] reads, at (p, u, q), the array at (p, q). -/
theorem broadcastInDim_ab_a1b_apply {a b : ℕ} (v : (⟨2, ![a, b]⟩ : Shape).Idx → α)
    (h : (⟨2, ![a, b]⟩ : Shape).BroadcastsInDim ⟨3, ![a, 1, b]⟩ (![0, 2] : Fin 2 → Fin (⟨3, ![a, 1, b]⟩ : Shape).rank))
    (p : Fin a) (u : Fin 1) (q : Fin b) : broadcastInDim ⟨3, ![a, 1, b]⟩ ![0, 2] h v (ix3 p u q) = v (ix2 p q) := by
  refine broadcastInDim_apply _ h v (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, 1, b] row broadcast along the axes [0, 1, 2] to [a, c, b] reads, at (p, r, q), the row at (p, q). -/
theorem broadcastInDim_a1b_acb_apply {a b c : ℕ} (v : (⟨3, ![a, 1, b]⟩ : Shape).Idx → α)
    (h : (⟨3, ![a, 1, b]⟩ : Shape).BroadcastsInDim ⟨3, ![a, c, b]⟩ (![0, 1, 2] : Fin 3 → Fin (⟨3, ![a, c, b]⟩ : Shape).rank))
    (p : Fin a) (r : Fin c) (q : Fin b) :
    broadcastInDim ⟨3, ![a, c, b]⟩ ![0, 1, 2] h v (ix3 p r q) = v (ix3 p (0 : Fin 1) q) := by
  refine broadcastInDim_apply _ h v (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A scalar broadcast to any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun ax => ax.elim0

/-! ## A batched contraction of last axes -/

/-- The dimension numbers of a batched product of rows: [B, M, K] with [B, N, K], the first axes the batch, the last
    axes contracted. -/
abbrev batchRowsDims (B M K N : Nat)
    (h : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := h

variable (B M K N : Nat) (h : DotDims.WF ⟨3, ![B, M, K]⟩ ⟨3, ![B, N, K]⟩ ⟨3, ![B, M, N]⟩ [2] [2] [1] [1] [0] [0])

/-- The contraction index has one axis, of extent K. -/
theorem batchRows_rank : (batchRowsDims B M K N h).contr.rank = 1 := rfl
theorem batchRows_size : (batchRowsDims B M K N h).contr.size ⟨0, Nat.one_pos⟩ = K := rfl

/-- At result entry (b, m, n) and contraction position k the left operand is read at (b, m, k) … -/
theorem batchRows_lhsIdx (b : Fin B) (m : Fin M) (n : Fin N) (k : Fin K) :
    (batchRowsDims B M K N h).lhsIdx (ix3 b m n) ((contrEquiv1 (batchRowsDims B M K N h) K rfl rfl).symm k) = ix3 b m k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).lhsIdx_val_of_single rfl _ _).trans hk)

/-- … and the right operand at (b, n, k). -/
theorem batchRows_rhsIdx (b : Fin B) (m : Fin M) (n : Fin N) (k : Fin K) :
    (batchRowsDims B M K N h).rhsIdx (ix3 b m n) ((contrEquiv1 (batchRowsDims B M K N h) K rfl rfl).symm k) = ix3 b n k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).rhsIdx_val_of_single rfl _ _).trans hk)

/-- The contraction sum at entry (b, m, n) is the sum over k of l[b, m, k] · r[b, n, k]. -/
theorem batchRows_sum (l : (⟨3, ![B, M, K]⟩ : Shape).Idx → EReal) (r : (⟨3, ![B, N, K]⟩ : Shape).Idx → EReal)
    (b : Fin B) (m : Fin M) (n : Fin N) :
    ∑ k : (batchRowsDims B M K N h).contr.Idx,
        l ((batchRowsDims B M K N h).lhsIdx (ix3 b m n) k) * r ((batchRowsDims B M K N h).rhsIdx (ix3 b m n) k)
      = ∑ k : Fin K, l (ix3 b m k) * r (ix3 b n k) := by
  rw [← Equiv.sum_comp (contrEquiv1 (batchRowsDims B M K N h) K rfl rfl).symm]
  refine Finset.sum_congr rfl fun k _ => ?_
  rw [batchRows_lhsIdx, batchRows_rhsIdx]

/-- A host batched dot product of rows, at entry (b, m, n). -/
theorem dotGeneral_batchRows_apply {φ₁ φ₂ : FTy} (prec : Option ContractPrecision) (sched : HostSchedule)
    (l : FVec Ideal ⟨3, ![B, M, K]⟩ φ₁) (r : FVec Ideal ⟨3, ![B, N, K]⟩ φ₂) (b : Fin B) (m : Fin M) (n : Fin N) :
    FloatOps.dotGeneral (batchRowsDims B M K N h) prec sched l r (ix3 b m n) = ∑ k : Fin K, l (ix3 b m k) * r (ix3 b n k) :=
  (Ideal.dotGeneral_apply (batchRowsDims B M K N h) prec sched l r (ix3 b m n)).trans (batchRows_sum B M K N h l r b m n)

end Cert.Lib.Rank3

end
-- ==== Proof.RefCos.lean ====
/-
  The reference's row norms and clamped cosines read at an index.

  The norm of row (b, m) of an [64, 200, 512] array is the square root of the float zero plus the sum over the
  channels of the squares; the float zero is the real zero. The cosine at (b, m, n) is the batched contraction of the
  channel axes divided by the larger of the product of the two rows' norms — spread over the result by keeping the
  reduced axis as a unit axis, last for the left operand's rows and middle for the right operand's — and the clamp.
-/
import proofs.«176695_j24215025615023_2_alg».proof.Proof.Spec
import proofs.«176695_j24215025615023_2_alg».proof.Proof.RefTerm
import proofs.«176695_j24215025615023_2_alg».proof.Proof.LibRank3Ref

open scoped BigOperators

noncomputable section

namespace Cert.ReferenceIdeal.RefCos

open Idealize.ShloMosaic Idealize.ShloMosaic.ValueIdx Cert.ReferenceIdeal Cert.Lib.Rank3

variable [Facts]
open Facts₀ Facts

/-- Dropping the last axis of [64, 200, 512] leaves [64, 200], with at least one axis kept. -/
theorem reduces_512 : S64x200x512.Reduces [2] S64x200 := by decide

/-- The sum of squares of row (b, m), as the reference takes it: from the float zero. -/
theorem sumsq_apply (A : FVec Ideal S64x200x512 .f32) (b : Fin 64) (m : Fin 200) :
    Host.reduceAdd (F := Ideal) (mulf A A) (constant (F := Ideal) S_ .f32 0x00000000#32)
        reducesTo_S64x200x512_S64x200_d2 h_S_ (ix2 b m)
      = ∑ f : Fin 512, A (ix3 b m f) * A (ix3 b m f) := by
  refine (hostReduceAdd_last (mulf A A) (constant (F := Ideal) S_ .f32 0x00000000#32)
    reducesTo_S64x200x512_S64x200_d2 reduces_512 h_S_ b m).trans ?_
  show Ideal.ofBits .f32 0x00000000#32 + ∑ f : Fin 512, A (ix3 b m f) * A (ix3 b m f) = _
  rw [Ideal.ofBits_zero_f32, zero_add]

/-- The norm of row (b, m). -/
theorem normT_apply (A : FVec Ideal S64x200x512 .f32) (b : Fin 64) (m : Fin 200) :
    RefTerm.normT A (ix2 b m) = Cert.SyncLoss.norm (fun m f => A (ix3 b m f)) m := by
  unfold RefTerm.normT Cert.SyncLoss.norm
  show Ideal.sqrt (Host.reduceAdd (F := Ideal) (mulf A A) (constant (F := Ideal) S_ .f32 0x00000000#32)
    reducesTo_S64x200x512_S64x200_d2 h_S_ (ix2 b m)) = _
  rw [sumsq_apply]

/-- The batched contraction of the channel axes at (b, m, n). -/
theorem dot_apply (A B : FVec Ideal S64x200x512 .f32) (b : Fin 64) (m n : Fin 200) :
    Host.dotGeneral (F := Ideal) dot_S64x200x512_S64x200x512_S64x200x200_2_2_1_1_0_0 none A B (ix3 b m n)
      = ∑ f : Fin 512, A (ix3 b m f) * B (ix3 b n f) :=
  dotGeneral_batchRows_apply 64 200 512 200 dot_S64x200x512_S64x200x512_S64x200x200_2_2_1_1_0_0_wf none .single A B b m n

/-- The left rows' norms spread over the result: at (b, m, n) the norm of row (b, m). -/
theorem spreadL_apply (v : FVec Ideal S64x200 .f32) (b : Fin 64) (m n : Fin 200) :
    broadcastInDim S64x200x200 ![0, 1, 2] bcast_S64x200x1_S64x200x200_0_1_2
        (broadcastInDim S64x200x1 ![0, 1] bcast_S64x200_S64x200x1_0_1 v) (ix3 b m n) = v (ix2 b m) :=
  (broadcastInDim_ab1_abc_apply _ bcast_S64x200x1_S64x200x200_0_1_2 b m n).trans
    (broadcastInDim_ab_ab1_apply v bcast_S64x200_S64x200x1_0_1 b m 0)

/-- The right rows' norms spread over the result: at (b, m, n) the norm of row (b, n). -/
theorem spreadR_apply (v : FVec Ideal S64x200 .f32) (b : Fin 64) (m n : Fin 200) :
    broadcastInDim S64x200x200 ![0, 1, 2] bcast_S64x1x200_S64x200x200_0_1_2
        (broadcastInDim S64x1x200 ![0, 2] bcast_S64x200_S64x1x200_0_2 v) (ix3 b m n) = v (ix2 b n) :=
  (broadcastInDim_a1b_acb_apply _ bcast_S64x1x200_S64x200x200_0_1_2 b m n).trans
    (broadcastInDim_ab_a1b_apply v bcast_S64x200_S64x1x200_0_2 b 0 n)

/-- The clamped cosine at (b, m, n). -/
theorem cosT_apply (A B : FVec Ideal S64x200x512 .f32) (b : Fin 64) (m n : Fin 200) :
    RefTerm.cosT A B (ix3 b m n)
      = Cert.SyncLoss.cosv (fun m f => A (ix3 b m f)) (fun n f => B (ix3 b n f)) m n := by
  unfold RefTerm.cosT Cert.SyncLoss.cosv
  show Ideal.div
      (Host.dotGeneral (F := Ideal) dot_S64x200x512_S64x200x512_S64x200x200_2_2_1_1_0_0 none A B (ix3 b m n))
      (max
        (broadcastInDim S64x200x200 ![0, 1, 2] bcast_S64x200x1_S64x200x200_0_1_2
            (broadcastInDim S64x200x1 ![0, 1] bcast_S64x200_S64x200x1_0_1 (RefTerm.normT A)) (ix3 b m n)
          * broadcastInDim S64x200x200 ![0, 1, 2] bcast_S64x1x200_S64x200x200_0_1_2
            (broadcastInDim S64x1x200 ![0, 2] bcast_S64x200_S64x1x200_0_2 (RefTerm.normT B)) (ix3 b m n))
        (broadcastInDim S64x200x200 ![] bcast_S_S64x200x200 (constant (F := Ideal) S_ .f32 0x322BCC77#32) (ix3 b m n)))
    = _
  rw [dot_apply, spreadL_apply, spreadR_apply, normT_apply, normT_apply,
    broadcastInDim_scalar_apply _ bcast_S_S64x200x200]
  rfl

end Cert.ReferenceIdeal.RefCos

end
-- ==== Proof.RefLogsm.lean ====
/-
  The reference's row maxima and row-wise log-softmax read at an index.

  The maximum of row (b, m) of an [64, 200, 200] array is the fold of the maximum from minus infinity over the row's
  entries, met once more with minus infinity, which changes nothing. The row is shifted by its maximum, spread back
  over the last axis; the logarithm of the row's sum of exponentials (from the float zero, the real zero) is spread
  the same way and subtracted.
-/
import proofs.«176695_j24215025615023_2_alg».proof.Proof.Spec
import proofs.«176695_j24215025615023_2_alg».proof.Proof.RefTerm
import proofs.«176695_j24215025615023_2_alg».proof.Proof.LibRank3Ref

open scoped BigOperators

noncomputable section

namespace Cert.ReferenceIdeal.RefLogsm

open Idealize.ShloMosaic Idealize.ShloMosaic.ValueIdx Cert.ReferenceIdeal Cert.Lib.Rank3

variable [Facts]
open Facts₀ Facts

/-- Dropping the last axis of [64, 200, 200] leaves [64, 200], with at least one axis kept. -/
theorem reduces_200 : S64x200x200.Reduces [2] S64x200 := by decide

/-- The float minus infinity is the bottom of the extended reals. -/
theorem ofBits_neg_inf : Ideal.ofBits .f32 0xFF800000#32 = (⊥ : EReal) := by simp [Ideal.ofBits, Ideal.ieee]

/-- A column of row values spread over the last axis: at (b, m, n) the value of row (b, m). -/
theorem spread_apply (v : FVec Ideal S64x200 .f32) (b : Fin 64) (m n : Fin 200) :
    broadcastInDim S64x200x200 ![0, 1, 2] bcast_S64x200x1_S64x200x200_0_1_2
        (broadcastInDim S64x200x1 ![0, 1] bcast_S64x200_S64x200x1_0_1 v) (ix3 b m n) = v (ix2 b m) :=
  (broadcastInDim_ab1_abc_apply _ bcast_S64x200x1_S64x200x200_0_1_2 b m n).trans
    (broadcastInDim_ab_ab1_apply v bcast_S64x200_S64x200x1_0_1 b m 0)

/-- The maximum of row (b, m). -/
theorem rowmaxT_apply (C : FVec Ideal S64x200x200 .f32) (b : Fin 64) (m : Fin 200) :
    RefTerm.rowmaxT C (ix2 b m) = Cert.SyncLoss.rowmax (fun m n => C (ix3 b m n)) m := by
  unfold RefTerm.rowmaxT
  refine (maximumf_apply _ _ _).trans ?_
  refine (congrArg₂ max (broadcastInDim_scalar_apply _ bcast_S_S64x200 (ix2 b m))
    (hostReduce_maximumf_last C _ reducesTo_S64x200x200_S64x200_d2 reduces_200 h_S_ b m)).trans ?_
  show max (Ideal.ofBits .f32 0xFF800000#32)
      ((Finset.univ : Finset (Fin 200)).fold max (Ideal.ofBits .f32 0xFF800000#32) fun k => C (ix3 b m k)) = _
  rw [ofBits_neg_inf, max_eq_right bot_le]
  rfl

/-- Row (b, m) shifted by its maximum, at n. -/
theorem shiftedT_apply (C : FVec Ideal S64x200x200 .f32) (b : Fin 64) (m n : Fin 200) :
    RefTerm.shiftedT C (ix3 b m n) = Cert.SyncLoss.shifted (fun m n => C (ix3 b m n)) m n := by
  unfold RefTerm.shiftedT Cert.SyncLoss.shifted
  show C (ix3 b m n)
      - broadcastInDim S64x200x200 ![0, 1, 2] bcast_S64x200x1_S64x200x200_0_1_2
          (broadcastInDim S64x200x1 ![0, 1] bcast_S64x200_S64x200x1_0_1 (RefTerm.rowmaxT C)) (ix3 b m n) = _
  rw [spread_apply, rowmaxT_apply]

/-- The sum of exponentials of the shifted row (b, m), as the reference takes it: from the float zero. -/
theorem sumexp_apply (C : FVec Ideal S64x200x200 .f32) (b : Fin 64) (m : Fin 200) :
    Host.reduceAdd (F := Ideal) (Host.exp (F := Ideal) (RefTerm.shiftedT C)) (constant (F := Ideal) S_ .f32 0x00000000#32)
        reducesTo_S64x200x200_S64x200_d2 h_S_ (ix2 b m)
      = ∑ k : Fin 200, Ideal.exp (Cert.SyncLoss.shifted (fun m n => C (ix3 b m n)) m k) := by
  refine (hostReduceAdd_last (Host.exp (F := Ideal) (RefTerm.shiftedT C)) (constant (F := Ideal) S_ .f32 0x00000000#32)
    reducesTo_S64x200x200_S64x200_d2 reduces_200 h_S_ b m).trans ?_
  show Ideal.ofBits .f32 0x00000000#32 + ∑ k : Fin 200, Ideal.exp (RefTerm.shiftedT C (ix3 b m k)) = _
  rw [Ideal.ofBits_zero_f32, zero_add]
  exact Finset.sum_congr rfl fun k _ => congrArg Ideal.exp (shiftedT_apply C b m k)

/-- The log-softmax of row (b, m), at n. -/
theorem logsmT_apply (C : FVec Ideal S64x200x200 .f32) (b : Fin 64) (m n : Fin 200) :
    RefTerm.logsmT C (ix3 b m n) = Cert.SyncLoss.logp (fun m n => C (ix3 b m n)) m n := by
  unfold RefTerm.logsmT Cert.SyncLoss.logp
  show RefTerm.shiftedT C (ix3 b m n)
      - broadcastInDim S64x200x200 ![0, 1, 2] bcast_S64x200x1_S64x200x200_0_1_2
          (Host.log (F := Ideal) (broadcastInDim S64x200x1 ![0, 1] bcast_S64x200_S64x200x1_0_1
            (Host.reduceAdd (F := Ideal) (Host.exp (F := Ideal) (RefTerm.shiftedT C))
              (constant (F := Ideal) S_ .f32 0x00000000#32) reducesTo_S64x200x200_S64x200_d2 h_S_))) (ix3 b m n) = _
  rw [broadcastInDim_ab1_abc_apply _ bcast_S64x200x1_S64x200x200_0_1_2 b m n]
  show RefTerm.shiftedT C (ix3 b m n)
      - Ideal.log (broadcastInDim S64x200x1 ![0, 1] bcast_S64x200_S64x200x1_0_1
            (Host.reduceAdd (F := Ideal) (Host.exp (F := Ideal) (RefTerm.shiftedT C))
              (constant (F := Ideal) S_ .f32 0x00000000#32) reducesTo_S64x200x200_S64x200_d2 h_S_) (ix3 b m (0 : Fin 1))) = _
  rw [broadcastInDim_ab_ab1_apply _ bcast_S64x200_S64x200x1_0_1 b m 0, sumexp_apply, shiftedT_apply]

end Cert.ReferenceIdeal.RefLogsm

end
-- ==== Proof.RefDiag.lean ====
/-
  The diagonal of a [64, 200, 200] array as the reference reads it: a gather at the index pairs (k, k).
-/
import proofs.«176695_j24215025615023_2_alg».proof.Proof.Spec
import proofs.«176695_j24215025615023_2_alg».proof.Proof.RefTerm
import Idealize.ShloMosaic.Lib.IdealHost
import Idealize.ShloMosaic.Lib.Pipeline.Value

noncomputable section

namespace Cert.ReferenceIdeal.RefDiag

open Idealize.ShloMosaic Idealize.ShloMosaic.ValueIdx Cert.ReferenceIdeal

variable [Facts]
open Facts₀ Facts

/-- A number below 200 is not negative as a signed 32-bit word. -/
theorem not_slt_zero (k : Fin 200) : IntOp.cmpi .slt (BitVec.ofNat 32 k.val) 0#32 = 0#1 := by
  revert k; decide

/-- Read signed, the 32-bit word of a number below 200 is that number, and at most 199. -/
theorem clamp_ofNat (k : Fin 200) : min (BitVec.ofNat 32 k.val).toInt.toNat (200 - 1) = k.val := by
  revert k; decide

/-- Entry `k` of the index column is `k`: the wrap by 200 is never taken. -/
theorem diagCol_apply (k : Fin 200) : RefTerm.diagCol (ix1 k) = BitVec.ofNat 32 k.val := by
  unfold RefTerm.diagCol
  rw [select_apply]
  show Scalar.select (IntOp.cmpi .slt (BitVec.ofNat 32 k.val) 0#32) _ (BitVec.ofNat 32 k.val) = _
  rw [not_slt_zero k, select_zero]

/-- The column kept as a [200, 1] array reads the column. -/
theorem colKept_apply (k : Fin 200) (u : Fin 1) :
    broadcastInDim S200x1 ![0] bcast_S200_S200x1_0 RefTerm.diagCol (ix2 k u) = BitVec.ofNat 32 k.val := by
  refine (broadcastInDim_apply _ bcast_S200_S200x1_0 RefTerm.diagCol (ix2 k u) (ix1 k) fun ax => ?_).trans (diagCol_apply k)
  match ax with
  | ⟨0, _⟩ => rfl

/-- Row `k` of the index pairs is `(k, k)`. -/
theorem diagIdx_apply (k : Fin 200) (c : Fin 2) : RefTerm.diagIdx (ix2 k c) = BitVec.ofNat 32 k.val := by
  unfold RefTerm.diagIdx
  match c with
  | ⟨0, _⟩ =>
    refine (concatenate_pair_apply_left (t := S200x2) (s₁ := S200x1) (s₂ := S200x1) (1 : Fin 2) _ _
      concatenates_S200x1_S200x1_S200x2_d1 _ rfl (ix2 k (0 : Fin 1)) (by
        intro b
        match b with
        | ⟨0, _⟩ => rfl
        | ⟨1, _⟩ => rfl)).trans ?_
    exact colKept_apply k 0
  | ⟨1, _⟩ =>
    refine (concatenate_pair_apply_right (t := S200x2) (s₁ := S200x1) (s₂ := S200x1) (1 : Fin 2) _ _
      concatenates_S200x1_S200x1_S200x2_d1 _ rfl rfl (ix2 k (0 : Fin 1)) (by
        intro b hb
        match b with
        | ⟨0, _⟩ => rfl
        | ⟨1, _⟩ => exact absurd rfl hb) rfl).trans ?_
    exact colKept_apply k 0

/-- The gather's dimension numbers. -/
private abbrev D : GatherDims S64x200x200 S200x2 S64x200 := gather_S64x200x200_S200x2_S64x200_0_12_n_n_12_1_6411

/-- The start-indices index at which result index `(b, k)` reads component `c` of its start index is `(k, c)`. -/
theorem siIdx_eq (b : Fin 64) (k : Fin 200) (c : Fin 2) : D.siIdx (ix2 b k) c = ix2 k c := by
  funext a
  refine Fin.ext ?_
  match a with
  | ⟨0, _⟩ => rfl
  | ⟨1, _⟩ => rfl

/-- The operand index the gather reads at result index `(b, k)`. -/
theorem operandIdx_eq (b : Fin 64) (k : Fin 200) : D.operandIdx (ix2 b k) RefTerm.diagIdx = ix3 b k k := by
  funext a
  refine Fin.ext ?_
  show D.start (ix2 b k) RefTerm.diagIdx a + D.batchCoord (ix2 b k) a + D.offCoord (ix2 b k) a = (ix3 b k k a).val
  rw [GatherDims.batchCoord_eq_zero _ _ _ List.not_mem_nil, Nat.add_zero]
  match a with
  | ⟨0, _⟩ =>
    have hs : D.start (ix2 b k) RefTerm.diagIdx (0 : Fin 3) = 0 := by
      unfold GatherDims.start
      have hm : (0 : Fin 3) ∉ D.startIndexMap := by
        show (0 : Fin 3) ∉ ([1, 2] : List (Fin 3))
        decide
      rw [dif_neg hm]
    have ho : D.offCoord (ix2 b k) (0 : Fin 3) = b.val := by
      unfold GatherDims.offCoord
      have hc : (0 : Fin 3) ∉ D.collapsedSliceDims := by
        show (0 : Fin 3) ∉ ([1, 2] : List (Fin 3))
        decide
      rw [dif_pos ((GatherDims.mem_sKept D 0).mpr ⟨hc, List.not_mem_nil⟩)]
      rfl
    show D.start (ix2 b k) RefTerm.diagIdx (0 : Fin 3) + D.offCoord (ix2 b k) (0 : Fin 3) = b.val
    rw [hs, ho, Nat.zero_add]
  | ⟨1, _⟩ =>
    have hs : D.start (ix2 b k) RefTerm.diagIdx (1 : Fin 3) = k.val := by
      unfold GatherDims.start
      have hm : (1 : Fin 3) ∈ D.startIndexMap := by
        show (1 : Fin 3) ∈ ([1, 2] : List (Fin 3))
        decide
      rw [dif_pos hm]
      refine Eq.trans ?_ (clamp_ofNat k)
      refine congrArg (fun w : BitVec 32 => min w.toInt.toNat (200 - 1)) ?_
      exact (congrArg RefTerm.diagIdx (siIdx_eq b k (0 : Fin 2))).trans (diagIdx_apply k 0)
    have hc : (1 : Fin 3) ∈ D.collapsedSliceDims := by
      show (1 : Fin 3) ∈ ([1, 2] : List (Fin 3))
      decide
    have ho : D.offCoord (ix2 b k) (1 : Fin 3) = 0 :=
      GatherDims.offCoord_eq_zero _ _ _ (fun h => ((GatherDims.mem_sKept _ _).mp h).1 hc)
    show D.start (ix2 b k) RefTerm.diagIdx (1 : Fin 3) + D.offCoord (ix2 b k) (1 : Fin 3) = k.val
    rw [hs, ho, Nat.add_zero]
  | ⟨2, _⟩ =>
    have hs : D.start (ix2 b k) RefTerm.diagIdx (2 : Fin 3) = k.val := by
      unfold GatherDims.start
      have hm : (2 : Fin 3) ∈ D.startIndexMap := by
        show (2 : Fin 3) ∈ ([1, 2] : List (Fin 3))
        decide
      rw [dif_pos hm]
      refine Eq.trans ?_ (clamp_ofNat k)
      refine congrArg (fun w : BitVec 32 => min w.toInt.toNat (200 - 1)) ?_
      exact (congrArg RefTerm.diagIdx (siIdx_eq b k (1 : Fin 2))).trans (diagIdx_apply k 1)
    have hc : (2 : Fin 3) ∈ D.collapsedSliceDims := by
      show (2 : Fin 3) ∈ ([1, 2] : List (Fin 3))
      decide
    have ho : D.offCoord (ix2 b k) (2 : Fin 3) = 0 :=
      GatherDims.offCoord_eq_zero _ _ _ (fun h => ((GatherDims.mem_sKept _ _).mp h).1 hc)
    show D.start (ix2 b k) RefTerm.diagIdx (2 : Fin 3) + D.offCoord (ix2 b k) (2 : Fin 3) = k.val
    rw [hs, ho, Nat.add_zero]

/-- The gathered array at `(b, k)` is the diagonal entry `(b, k, k)`. -/
theorem diagT_apply (L : FVec Ideal S64x200x200 .f32) (b : Fin 64) (k : Fin 200) :
    RefTerm.diagT L (ix2 b k) = L (ix3 b k k) := by
  unfold RefTerm.diagT Host.gather
  exact congrArg L (operandIdx_eq b k)

end Cert.ReferenceIdeal.RefDiag

end
-- ==== Proof.RefLossSum.lean ====
/-
  The reference's last stage read at its one index: the rows of a [64, 200] array summed, each row sum divided by the
  count and negated, and the 64 results summed from the float zero.
-/
import proofs.«176695_j24215025615023_2_alg».proof.Proof.Spec
import proofs.«176695_j24215025615023_2_alg».proof.Proof.RefTerm
import Idealize.ShloMosaic.Lib.IdealHost

open scoped BigOperators

noncomputable section

namespace Cert.ReferenceIdeal.RefLossSum

open Idealize.ShloMosaic Idealize.ShloMosaic.ValueIdx Cert.ReferenceIdeal

variable [Facts]
open Facts₀ Facts

/-- Over a [64, 200] array reduced along its columns, the source index over row `b` with column `k` inserted is
    `(b, k)`. -/
theorem lift_row (h : S64x200.Reduces [1] S64) (b : Fin 64) (k : Fin 200) : h.lift (ix1 b) k = ix2 b k := by
  funext a
  match a with
  | ⟨0, _⟩ => rfl
  | ⟨1, _⟩ => rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The row sums: entry `b` is the sum of row `b` (the initial value is the float zero). -/
theorem rowsum_apply (D : FVec Ideal S64x200 .f32) (b : Fin 64) :
    Host.reduceAdd (F := Ideal) D (constant (F := Ideal) S_ .f32 0x00000000#32) reducesTo_S64x200_S64_d1 h_S_ (ix1 b)
      = ∑ m : Fin 200, D (ix2 b m) := by
  have h : S64x200.Reduces [1] S64 := by decide
  show Ideal.hostReduceAdd reducesTo_S64x200_S64_d1 D (Ideal.ofBits .f32 0x00000000#32) (ix1 b) = _
  rw [Ideal.hostReduceAdd_single reducesTo_S64x200_S64_d1 h, Ideal.ofBits_zero_f32, zero_add]
  exact Finset.sum_congr rfl fun k _ => congrArg D (lift_row h b k)

/-- The whole stage: the float zero plus the sum over the batch of minus the row sums divided by the count. -/
theorem lossT_apply (D : FVec Ideal S64x200 .f32) :
    RefTerm.lossT D ix0 = Cert.SyncLoss.total (fun b => -(Ideal.div (∑ m : Fin 200, D (ix2 b m)) Cert.SyncLoss.count)) := by
  unfold RefTerm.lossT Cert.SyncLoss.total
  show Ideal.hostReduceAdd reducesTo_S64_S_d0 _ (Ideal.ofBits .f32 0x00000000#32) ix0 = _
  rw [Ideal.hostReduceAdd_total reducesTo_S64_S_d0 (fun b => b.elim0), sum_idx1]
  refine congrArg (Cert.SyncLoss.zero + ·) (Finset.sum_congr rfl fun b _ => ?_)
  show -(Ideal.div (Host.reduceAdd (F := Ideal) D (constant (F := Ideal) S_ .f32 0x00000000#32) reducesTo_S64x200_S64_d1 h_S_ (ix1 b))
      (broadcastInDim S64 ![] bcast_S_S64 (constant (F := Ideal) S_ .f32 0x43480000#32) (ix1 b))) = _
  rw [rowsum_apply D b, broadcastInDim_scalar_apply]
  rfl

end Cert.ReferenceIdeal.RefLossSum

end
-- ==== Proof.RefVal.lean ====
/-
  The reference's result as the function `G` of the segment numbers and the two feature arrays.

  The stages are read one after another at an entry: the loss is the batch sum of minus the mean of each diagonal, the
  diagonal of the log-softmax is read at the entries (b, k, k), the log-softmax and the clamped cosines are the
  plain-index functions of their operands, and the operands are the segment sums of the two feature arrays.
-/
import proofs.«176695_j24215025615023_2_alg».proof.Proof.Spec
import proofs.«176695_j24215025615023_2_alg».proof.Proof.RefTerm
import proofs.«176695_j24215025615023_2_alg».proof.Proof.RefMerged
import proofs.«176695_j24215025615023_2_alg».proof.Proof.RefCos
import proofs.«176695_j24215025615023_2_alg».proof.Proof.RefLogsm
import proofs.«176695_j24215025615023_2_alg».proof.Proof.RefDiag
import proofs.«176695_j24215025615023_2_alg».proof.Proof.RefLossSum

noncomputable section

namespace Cert.ReferenceIdeal.RefVal

open Idealize.ShloMosaic Idealize.ShloMosaic.ValueIdx Cert.ReferenceIdeal

variable [Facts]
open Facts₀ Facts

/-- The reference's result is `G` of the segment numbers and the two feature arrays read by plain coordinates. -/
theorem refVal_eq (seg : IVec S600 32) (x y : FVec Ideal S64x512x600 .f32) :
    RefTerm.refVal seg x y ix0 =
      Cert.SyncLoss.G (fun t => seg (ix1 t)) (fun b f t => x (ix3 b f t)) (fun b f t => y (ix3 b f t)) := by
  unfold RefTerm.refVal Cert.SyncLoss.G
  rw [RefLossSum.lossT_apply]
  refine congrArg Cert.SyncLoss.total (funext fun b => ?_)
  unfold Cert.SyncLoss.lossRef
  refine congrArg (fun s => -(Ideal.div s Cert.SyncLoss.count)) (Finset.sum_congr rfl fun m _ => ?_)
  rw [RefDiag.diagT_apply, RefLogsm.logsmT_apply]
  refine congrArg (fun C => Cert.SyncLoss.logp C m m) (funext fun p => funext fun q => ?_)
  rw [RefCos.cosT_apply]
  refine congrArg₂ (fun A B => Cert.SyncLoss.cosv A B p q) (funext fun i => funext fun f => ?_)
    (funext fun i => funext fun f => ?_)
  · exact RefMerged.mergedT_apply seg x b i f
  · exact RefMerged.mergedT_apply seg y b i f

end Cert.ReferenceIdeal.RefVal

end
-- ==== Proof.lean ====
/-
  The certificate of the segment-sum cosine loss.

  Both programs compute, from two feature arrays x, y [64, 512, 600] and the fixed segment numbers of the 600 time steps,
  the sum over the 64 batch elements of minus the mean of the diagonal of the row-wise log-softmax of the clamped cosines
  between the rows of the two segment-summed feature maps (`Cert.SyncLoss.G`). The kernel sums segments by a product with
  the one-hot matrix of the segment numbers and reads the diagonal by a masked row sum; the reference sums segments by a
  scatter-add and gathers the diagonal. On the extended reals the two agree term by term: a product with a 0/1 factor is a
  selection, a masked row sum keeps the diagonal entry, and negation commutes with the division by the count.
  The three frames: the kernel programs' are their generated frame runs, the reference's is its run with the result dropped.
-/
import proofs.«176695_j24215025615023_2_alg».proof.Defs
import proofs.«176695_j24215025615023_2_alg».proof.Proof.Gen.Kernel
import proofs.«176695_j24215025615023_2_alg».proof.Proof.Gen.Kernel.Frame
import proofs.«176695_j24215025615023_2_alg».proof.Proof.Gen.KernelIdeal
import proofs.«176695_j24215025615023_2_alg».proof.Proof.Gen.KernelIdeal.Frame
import proofs.«176695_j24215025615023_2_alg».proof.Proof.Gen.ReferenceIdeal
import proofs.«176695_j24215025615023_2_alg».proof.Proof.Gen.Pre_finite_inputs
import proofs.«176695_j24215025615023_2_alg».proof.Proof.KerRun
import proofs.«176695_j24215025615023_2_alg».proof.Proof.RefRun
import proofs.«176695_j24215025615023_2_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

/-- From memories that agree on the arguments both runs end with the result buffer at `Cert.SyncLoss.G` of the segment
    numbers and the two feature arrays: the kernel program's by its run read back, the reference's by its run and its
    stages read at an index. -/
theorem algebraic : Cert.algebraic_KernelIdeal_ReferenceIdeal := by
  intro m ρ m' ρ' _ hagree
  refine ⟨fun c => Cert.KernelIdeal.KerRun.result m c, Cert.KernelIdeal.KerRun.run m ρ, ?_⟩
  refine (θ_run Cert.ReferenceIdeal.defs _ _).mono (fun _ h c => ⟨(h c).1.trans ?_, (h c).2⟩)
    (Cert.ReferenceIdeal.RefRun.run m' ρ')
  rw [(hagree c).2.1, (hagree c).2.2]
  funext i
  rw [Idealize.ShloMosaic.ValueIdx.eq_ix0 i]
  exact Cert.ReferenceIdeal.RefVal.refVal_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
